-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x300 : Shape := ⟨2, ![10000, 300]⟩
abbrev S1500x1500 : Shape := ⟨2, ![1500, 1500]⟩
abbrev S300x1500 : Shape := ⟨2, ![300, 1500]⟩
abbrev S1500 : Shape := ⟨1, ![1500]⟩
abbrev S10000x128 : Shape := ⟨2, ![10000, 128]⟩
abbrev S128 : Shape := ⟨1, ![128]⟩
abbrev S128x30 : Shape := ⟨2, ![128, 30]⟩
abbrev S30 : Shape := ⟨1, ![30]⟩
abbrev S30x30 : Shape := ⟨2, ![30, 30]⟩
abbrev S30x2 : Shape := ⟨2, ![30, 2]⟩
abbrev S2 : Shape := ⟨1, ![2]⟩
abbrev S_ : Shape := ⟨0, ![]⟩

class Facts : Prop where
  bcast_S_S10000x300 : S_.BroadcastsInDim S10000x300 (![] : Fin 0 → Fin S10000x300.rank)
  reducesTo_S10000x300_S_d0_1 : S10000x300.ReducesTo [0, 1] S_
  h_S_ : 0 < S_.numel
  bcast_S_S1500x1500 : S_.BroadcastsInDim S1500x1500 (![] : Fin 0 → Fin S1500x1500.rank)
  reducesTo_S1500x1500_S_d0_1 : S1500x1500.ReducesTo [0, 1] S_
  bcast_S_S300x1500 : S_.BroadcastsInDim S300x1500 (![] : Fin 0 → Fin S300x1500.rank)
  reducesTo_S300x1500_S_d0_1 : S300x1500.ReducesTo [0, 1] S_
  bcast_S_S1500 : S_.BroadcastsInDim S1500 (![] : Fin 0 → Fin S1500.rank)
  reducesTo_S1500_S_d0 : S1500.ReducesTo [0] S_
  bcast_S_S10000x128 : S_.BroadcastsInDim S10000x128 (![] : Fin 0 → Fin S10000x128.rank)
  reducesTo_S10000x128_S_d0_1 : S10000x128.ReducesTo [0, 1] S_
  bcast_S_S128 : S_.BroadcastsInDim S128 (![] : Fin 0 → Fin S128.rank)
  reducesTo_S128_S_d0 : S128.ReducesTo [0] S_
  bcast_S_S128x30 : S_.BroadcastsInDim S128x30 (![] : Fin 0 → Fin S128x30.rank)
  reducesTo_S128x30_S_d0_1 : S128x30.ReducesTo [0, 1] S_
  bcast_S_S30 : S_.BroadcastsInDim S30 (![] : Fin 0 → Fin S30.rank)
  reducesTo_S30_S_d0 : S30.ReducesTo [0] S_
  bcast_S_S30x30 : S_.BroadcastsInDim S30x30 (![] : Fin 0 → Fin S30x30.rank)
  reducesTo_S30x30_S_d0_1 : S30x30.ReducesTo [0, 1] S_
  bcast_S_S30x2 : S_.BroadcastsInDim S30x2 (![] : Fin 0 → Fin S30x2.rank)
  reducesTo_S30x2_S_d0_1 : S30x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S30x2 .f32) (main_arg12 : FVec F S2 .f32) (main_v48 : IVec S_ 1) (main_v49 : FVec F S30 .f32) (main_v50 : FVec F S30 .f32) : IVec S_ 1 :=
  let main_v51 : IVec S30 1 := cmpf .olt main_v49 main_v50
  let main_c_19 : IVec S_ 1 := constantI S_ 1 1#1
  let main_v52 : IVec S_ 1 := (fun x v => Host.reduce IntOp.andi x v reducesTo_S30_S_d0 h_S_) main_v51 main_c_19
  let main_v53 : IVec S_ 1 := andi main_v48 main_v52
  let main_v54 : FVec F S30x2 .f32 := Host.absf main_arg11
  let main_cst_20 : FVec F S_ .f32 := constant S_ .f32 0x7F800000#32
  let main_v55 : FVec F S30x2 .f32 := broadcastInDim S30x2 ![] bcast_S_S30x2 main_cst_20
  let main_v56 : IVec S30x2 1 := cmpf .olt main_v54 main_v55
  let main_c_21 : IVec S_ 1 := constantI S_ 1 1#1
  let main_v57 : IVec S_ 1 := (fun x v => Host.reduce IntOp.andi x v reducesTo_S30x2_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg7 : FVec F S128x30 .f32) (main_arg8 : FVec F S30 .f32) (main_arg9 : FVec F S30x30 .f32) (main_arg10 : FVec F S30 .f32) (main_arg11 : FVec F S30x2 .f32) (main_arg12 : FVec F S2 .f32) (main_v33 : IVec S_ 1) : IVec S_ 1 :=
  let main_v34 : FVec F S128x30 .f32 := Host.absf main_arg7
  let main_cst_12 : FVec F S_ .f32 := constant S_ .f32 0x7F800000#32
  let main_v35 : FVec F S128x30 .f32 := broadcastInDim S128x30 ![] bcast_S_S128x30 main_cst_12
  let main_v36 : IVec S128x30 1 := cmpf .olt main_v34 main_v35
  let main_c_13 : IVec S_ 1 := constantI S_ 1 1#1
  let main_v37 : IVec S_ 1 := (fun x v => Host.reduce IntOp.andi x v reducesTo_S128x30_S_d0_1 h_S_) main_v36 main_c_13
  let main_v38 : IVec S_ 1 := andi main_v33 main_v37
  let main_v39 : FVec F S30 .f32 := Host.absf main_arg8
  let main_cst_14 : FVec F S_ .f32 := constant S_ .f32 0x7F800000#32
  let main_v40 : FVec F S30 .f32 := broadcastInDim S30 ![] bcast_S_S30 main_cst_14
  let main_v41 : IVec S30 1 := cmpf .olt main_v39 main_v40
  let main_c_15 : IVec S_ 1 := constantI S_ 1 1#1
  let main_v42 : IVec S_ 1 := (fun x v => Host.reduce IntOp.andi x v reducesTo_S30_S_d0 h_S_) main_v41 main_c_15
  let main_v43 : IVec S_ 1 := andi main_v38 main_v42
  let main_v44 : FVec F S30x30 .f32 := Host.absf main_arg9
  let main_cst_16 : FVec F S_ .f32 := constant S_ .f32 0x7F800000#32
  let main_v45 : FVec F S30x30 .f32 := broadcastInDim S30x30 ![] bcast_S_S30x30 main_cst_16
  let main_v46 : IVec S30x30 1 := cmpf .olt main_v44 main_v45
  let main_c_17 : IVec S_ 1 := constantI S_ 1 1#1
  let main_v47 : IVec S_ 1 := (fun x v => Host.reduce IntOp.andi x v reducesTo_S30x30_S_d0_1 h_S_) main_v46 main_c_17
  let main_v48 : IVec S_ 1 := andi main_v43 main_v47
  let main_v49 : FVec F S30 .f32 := Host.absf main_arg10
  let main_cst_18 : FVec F S_ .f32 := constant S_ .f32 0x7F800000#32
  let main_v50 : FVec F S30 .f32 := broadcastInDim S30 ![] bcast_S_S30 main_cst_18
  fn_part3 (F := F) main_arg11 main_arg12 main_v48 main_v49 main_v50

def fn_part1 {F : FTy → Type} [FloatOps F] (main_arg4 : FVec F S1500 .f32) (main_arg5 : FVec F S10000x128 .f32) (main_arg6 : FVec F S128 .f32) (main_arg7 : FVec F S128x30 .f32) (main_arg8 : FVec F S30 .f32) (main_arg9 : FVec F S30x30 .f32) (main_arg10 : FVec F S30 .f32) (main_arg11 : FVec F S30x2 .f32) (main_arg12 : FVec F S2 .f32) (main_v13 : IVec S_ 1) (main_v16 : IVec S300x1500 1) : IVec S_ 1 :=
  let main_c_5 : IVec S_ 1 := constantI S_ 1 1#1
  let main_v17 : IVec S_ 1 := (fun x v => Host.reduce IntOp.andi x v reducesTo_S300x1500_S_d0_1 h_S_) main_v16 main_c_5
  let main_v18 : IVec S_ 1 := andi main_v13 main_v17
  let main_v19 : FVec F S1500 .f32 := Host.absf main_arg4
  let main_cst_6 : FVec F S_ .f32 := constant S_ .f32 0x7F800000#32
  let main_v20 : FVec F S1500 .f32 := broadcastInDim S1500 ![] bcast_S_S1500 main_cst_6
  let main_v21 : IVec S1500 1 := cmpf .olt main_v19 main_v20
  let main_c_7 : IVec S_ 1 := constantI S_ 1 1#1
  let main_v22 : IVec S_ 1 := (fun x v => Host.reduce IntOp.andi x v reducesTo_S1500_S_d0 h_S_) main_v21 main_c_7
  let main_v23 : IVec S_ 1 := andi main_v18 main_v22
  let main_v24 : FVec F S10000x128 .f32 := Host.absf main_arg5
  let main_cst_8 : FVec F S_ .f32 := constant S_ .f32 0x7F800000#32
  let main_v25 : FVec F S10000x128 .f32 := broadcastInDim S10000x128 ![] bcast_S_S10000x128 main_cst_8
  let main_v26 : IVec S10000x128 1 := cmpf .olt main_v24 main_v25
  let main_c_9 : IVec S_ 1 := constantI S_ 1 1#1
  let main_v27 : IVec S_ 1 := (fun x v => Host.reduce IntOp.andi x v reducesTo_S10000x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x300 .f32) (main_arg1 : FVec F S1500x1500 .f32) (main_arg2 : FVec F S1500x1500 .f32) (main_arg3 : FVec F S300x1500 .f32) (main_arg4 : FVec F S1500 .f32) (main_arg5 : FVec F S10000x128 .f32) (main_arg6 : FVec F S128 .f32) (main_arg7 : FVec F S128x30 .f32) (main_arg8 : FVec F S30 .f32) (main_arg9 : FVec F S30x30 .f32) (main_arg10 : FVec F S30 .f32) (main_arg11 : FVec F S30x2 .f32) (main_arg12 : FVec F S2 .f32) : IVec S_ 1 :=
  let main_v0 : FVec F S10000x300 .f32 := Host.absf main_arg0
  let main_cst : FVec F S_ .f32 := constant S_ .f32 0x7F800000#32
  let main_v1 : FVec F S10000x300 .f32 := broadcastInDim S10000x300 ![] bcast_S_S10000x300 main_cst
  let main_v2 : IVec S10000x300 1 := cmpf .olt main_v0 main_v1
  let main_c : IVec S_ 1 := constantI S_ 1 1#1
  let main_v3 : IVec S_ 1 := (fun x v => Host.reduce IntOp.andi x v reducesTo_S10000x300_S_d0_1 h_S_) main_v2 main_c
  let main_v4 : FVec F S1500x1500 .f32 := Host.absf main_arg1
  let main_cst_0 : FVec F S_ .f32 := constant S_ .f32 0x7F800000#32
  let main_v5 : FVec F S1500x1500 .f32 := broadcastInDim S1500x1500 ![] bcast_S_S1500x1500 main_cst_0
  let main_v6 : IVec S1500x1500 1 := cmpf .olt main_v4 main_v5
  let main_c_1 : IVec S_ 1 := constantI S_ 1 1#1
  let main_v7 : IVec S_ 1 := (fun x v => Host.reduce IntOp.andi x v reducesTo_S1500x1500_S_d0_1 h_S_) main_v6 main_c_1
  let main_v8 : IVec S_ 1 := andi main_v3 main_v7
  let main_v9 : FVec F S1500x1500 .f32 := Host.absf main_arg2
  let main_cst_2 : FVec F S_ .f32 := constant S_ .f32 0x7F800000#32
  let main_v10 : FVec F S1500x1500 .f32 := broadcastInDim S1500x1500 ![] bcast_S_S1500x1500 main_cst_2
  let main_v11 : IVec S1500x1500 1 := cmpf .olt main_v9 main_v10
  let main_c_3 : IVec S_ 1 := constantI S_ 1 1#1
  let main_v12 : IVec S_ 1 := (fun x v => Host.reduce IntOp.andi x v reducesTo_S1500x1500_S_d0_1 h_S_) main_v11 main_c_3
  let main_v13 : IVec S_ 1 := andi main_v8 main_v12
  let main_v14 : FVec F S300x1500 .f32 := Host.absf main_arg3
  let main_cst_4 : FVec F S_ .f32 := constant S_ .f32 0x7F800000#32
  let main_v15 : FVec F S300x1500 .f32 := broadcastInDim S300x1500 ![] bcast_S_S300x1500 main_cst_4
  let main_v16 : IVec S300x1500 1 := cmpf .olt main_v14 main_v15
  fn_part1 (F := F) main_arg4 main_arg5 main_arg6 main_arg7 main_arg8 main_arg9 main_arg10 main_arg11 main_arg12 main_v13 main_v16
-- ==== Kernel.lean ====
abbrev S10000x300 : Shape := ⟨2, ![10000, 300]⟩
abbrev S1500x1500 : Shape := ⟨2, ![1500, 1500]⟩
abbrev S300x1500 : Shape := ⟨2, ![300, 1500]⟩
abbrev S1500 : Shape := ⟨1, ![1500]⟩
abbrev S10000x128 : Shape := ⟨2, ![10000, 128]⟩
abbrev S128 : Shape := ⟨1, ![128]⟩
abbrev S128x30 : Shape := ⟨2, ![128, 30]⟩
abbrev S30 : Shape := ⟨1, ![30]⟩
abbrev S30x30 : Shape := ⟨2, ![30, 30]⟩
abbrev S30x2 : Shape := ⟨2, ![30, 2]⟩
abbrev S2 : Shape := ⟨1, ![2]⟩
abbrev S1x1500 : Shape := ⟨2, ![1, 1500]⟩
abbrev S1x128 : Shape := ⟨2, ![1, 128]⟩
abbrev S1x30 : Shape := ⟨2, ![1, 30]⟩
abbrev S1x2 : Shape := ⟨2, ![1, 2]⟩
abbrev S1500x2 : Shape := ⟨2, ![1500, 2]⟩
abbrev S400x300 : Shape := ⟨2, ![400, 300]⟩
abbrev S10000x1500 : Shape := ⟨2, ![10000, 1500]⟩
abbrev S400x1500 : Shape := ⟨2, ![400, 1500]⟩
abbrev S1500x128 : Shape := ⟨2, ![1500, 128]⟩
abbrev S1500x30 : Shape := ⟨2, ![1500, 30]⟩
abbrev S1500x1 : Shape := ⟨2, ![1500, 1]⟩

abbrev nBuf : Space → Nat
  | .hbm => 22
  | .vmem => 16
  | .smem => 0
  | _ => 0

abbrev bufTy : (tb : Table) → Fin (tcTables nBuf tb) → BufTy
  | .hbm, ⟨0, _⟩ => ⟨S10000x300, .f32⟩
  | .hbm, ⟨1, _⟩ => ⟨S1500x1500, .f32⟩
  | .hbm, ⟨2, _⟩ => ⟨S1500x1500, .f32⟩
  | .hbm, ⟨3, _⟩ => ⟨S300x1500, .f32⟩
  | .hbm, ⟨4, _⟩ => ⟨S1500, .f32⟩
  | .hbm, ⟨5, _⟩ => ⟨S10000x128, .f32⟩
  | .hbm, ⟨6, _⟩ => ⟨S128, .f32⟩
  | .hbm, ⟨7, _⟩ => ⟨S128x30, .f32⟩
  | .hbm, ⟨8, _⟩ => ⟨S30, .f32⟩
  | .hbm, ⟨9, _⟩ => ⟨S30x30, .f32⟩
  | .hbm, ⟨10, _⟩ => ⟨S30, .f32⟩
  | .hbm, ⟨11, _⟩ => ⟨S30x2, .f32⟩
  | .hbm, ⟨12, _⟩ => ⟨S2, .f32⟩
  | .hbm, ⟨13, _⟩ => ⟨S1500x1500, .bf16⟩
  | .hbm, ⟨14, _⟩ => ⟨S1500x1500, .bf16⟩
  | .hbm, ⟨15, _⟩ => ⟨S10000x128, .bf16⟩
  | .hbm, ⟨16, _⟩ => ⟨S1x1500, .f32⟩
  | .hbm, ⟨17, _⟩ => ⟨S1x128, .f32⟩
  | .hbm, ⟨18, _⟩ => ⟨S1x30, .f32⟩
  | .hbm, ⟨19, _⟩ => ⟨S1x30, .f32⟩
  | .hbm, ⟨20, _⟩ => ⟨S1x2, .f32⟩
  | .hbm, ⟨21, _⟩ => ⟨S1500x2, .f32⟩
  | .local _ .vmem, ⟨0, _⟩ => ⟨S400x300, .f32⟩
  | .local _ .vmem, ⟨1, _⟩ => ⟨S400x300, .f32⟩
  | .local _ .vmem, ⟨2, _⟩ => ⟨S300x1500, .f32⟩
  | .local _ .vmem, ⟨3, _⟩ => ⟨S1x1500, .f32⟩
  | .local _ .vmem, ⟨4, _⟩ => ⟨S10000x128, .bf16⟩
  | .local _ .vmem, ⟨5, _⟩ => ⟨S1500x1500, .bf16⟩
  | .local _ .vmem, ⟨6, _⟩ => ⟨S1500x1500, .bf16⟩
  | .local _ .vmem, ⟨7, _⟩ => ⟨S1x128, .f32⟩
  | .local _ .vmem, ⟨8, _⟩ => ⟨S128x30, .f32⟩
  | .local _ .vmem, ⟨9, _⟩ => ⟨S1x30, .f32⟩
  | .local _ .vmem, ⟨10, _⟩ => ⟨S30x30, .f32⟩
  | .local _ .vmem, ⟨11, _⟩ => ⟨S1x30, .f32⟩
  | .local _ .vmem, ⟨12, _⟩ => ⟨S30x2, .f32⟩
  | .local _ .vmem, ⟨13, _⟩ => ⟨S1x2, .f32⟩
  | .local _ .vmem, ⟨14, _⟩ => ⟨S1500x2, .f32⟩
  | .local _ .vmem, ⟨15, _⟩ => ⟨S10000x1500, .bf16⟩
  | _, _ => ⟨S10000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v10 : BitVec 32 := Scalar.muli arg0 c400_i32
  let v11 : Index := Scalar.indexCast v10
  let c0_5 : Index := 0#32
  ![v11.toNat, 0]
def k0_cond1 (i : grid0.Coords) : BitVec 1 :=
  let arg0 : BitVec 32 := BitVec.ofNat 32 (i 0).val
  let c24_i32 : BitVec 32 := 24#32
  let v15 : BitVec 1 := Scalar.cmpi .eq arg0 c24_i32
  let v16 : BitVec 32 := Scalar.extui v15
  let c0_i32 : BitVec 32 := 0#32
  let v17 : BitVec 1 := Scalar.cmpi .ne v16 c0_i32
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x1500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1500x1500 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1500x1500 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x30 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x30 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S30x30 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x30 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S30x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1500x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  bitsLt_bf16_f32 : FTy.bits .bf16 < FTy.bits .f32
  shapeCasts_S1500_S1x1500 : S1500.ShapeCasts S1x1500
  shapeCasts_S128_S1x128 : S128.ShapeCasts S1x128
  shapeCasts_S30_S1x30 : S30.ShapeCasts S1x30
  shapeCasts_S2_S1x2 : S2.ShapeCasts S1x2
  inb_S400x300_S400x300_0_0 : ∀ a, (![0, 0] : Fin 2 → Nat) a + S400x300.size a ≤ S400x300.size a
  h_S400x300 : 0 < S400x300.numel
  inb_S300x1500_S300x1500_0_0 : ∀ a, (![0, 0] : Fin 2 → Nat) a + S300x1500.size a ≤ S300x1500.size a
  h_S300x1500 : 0 < S300x1500.numel
  inb_S1x1500_S1x1500_0_0 : ∀ a, (![0, 0] : Fin 2 → Nat) a + S1x1500.size a ≤ S1x1500.size a
  h_S1x1500 : 0 < S1x1500.numel
  shapeCasts_S1x1500_S1x1500 : S1x1500.ShapeCasts S1x1500
  broadcasts_S1x1500_S400x1500 : S1x1500.Broadcasts S400x1500
  h_S400x1500 : 0 < S400x1500.numel
  shapeCasts_S400x1500_S400x1500 : S400x1500.ShapeCasts S400x1500
  inb_S10000x1500_S10000x1500_0_0 : ∀ a, (![0, 0] : Fin 2 → Nat) a + S10000x1500.size a ≤ S10000x1500.size a
  h_S10000x1500 : 0 < S10000x1500.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1500x1500_S1500x1500_0_0 : ∀ a, (![0, 0] : Fin 2 → Nat) a + S1500x1500.size a ≤ S1500x1500.size a
  h_S1500x1500 : 0 < S1500x1500.numel
  shapeCasts_S1500x1500_S1500x1500 : S1500x1500.ShapeCasts S1500x1500
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1500x128 : S1x128.Broadcasts S1500x128
  inb_S128x30_S128x30_0_0 : ∀ a, (![0, 0] : Fin 2 → Nat) a + S128x30.size a ≤ S128x30.size a
  h_S128x30 : 0 < S128x30.numel
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S1500x30 : S1x30.Broadcasts S1500x30
  inb_S30x30_S30x30_0_0 : ∀ a, (![0, 0] : Fin 2 → Nat) a + S30x30.size a ≤ S30x30.size a
  h_S30x30 : 0 < S30x30.numel
  inb_S30x2_S30x2_0_0 : ∀ a, (![0, 0] : Fin 2 → Nat) a + S30x2.size a ≤ S30x2.size a
  h_S30x2 : 0 < S30x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1500x2 : S1x2.Broadcasts S1500x2
  reduces_S1500x2_S1500 : S1500x2.Reduces [1] S1500
  shapeCasts_S1500_S1500x1 : S1500.ShapeCasts S1500x1
  broadcasts_S1500x1_S1500x2 : S1500x1.Broadcasts S1500x2
  inb_S1500x2_S1500x2_0_0 : ∀ a, (![0, 0] : Fin 2 → Nat) a + S1500x2.size a ≤ S1500x2.size a
  h_S1500x2 : 0 < S1500x2.numel
  dot_S400x300_S300x1500_S400x1500_1_0_0_1_n_n_wf : DotDims.WF S400x300 S300x1500 S400x1500 [1] [0] [0] [1] [] []
  dot_S10000x1500_S10000x128_S1500x128_0_0_1_1_n_n_wf : DotDims.WF S10000x1500 S10000x128 S1500x128 [0] [0] [1] [1] [] []
  dot_S1500x1500_S1500x128_S1500x128_1_0_0_1_n_n_wf : DotDims.WF S1500x1500 S1500x128 S1500x128 [1] [0] [0] [1] [] []
  dot_S1500x128_S128x30_S1500x30_1_0_0_1_n_n_wf : DotDims.WF S1500x128 S128x30 S1500x30 [1] [0] [0] [1] [] []
  dot_S1500x1500_S1500x30_S1500x30_1_0_0_1_n_n_wf : DotDims.WF S1500x1500 S1500x30 S1500x30 [1] [0] [0] [1] [] []
  dot_S1500x30_S30x30_S1500x30_1_0_0_1_n_n_wf : DotDims.WF S1500x30 S30x30 S1500x30 [1] [0] [0] [1] [] []
  dot_S1500x30_S30x2_S1500x2_1_0_0_1_n_n_wf : DotDims.WF S1500x30 S30x2 S1500x2 [1] [0] [0] [1] [] []
  hrank0 : 0 < grid0.rank
  k0_off1_inb : ∀ i : grid0.Coords, ∀ a, (k0_off1 i) a + S400x1500.size a ≤ S10000x1500.size a
  k0_off1_packedbf16 : ∀ i : grid0.Coords, (Rect.unit (s := S10000x1500) (k0_off1 i) S400x1500.size (k0_off1_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x300.size a ≤ S10000x300.size a
  hwx0_0 : ∀ i : grid0.Coords, EltTy.bits .f32 = 32 ∨ (Rect.block (s := S10000x300) S400x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x1500.size a ≤ S300x1500.size a
  hwx0_1 : ∀ i : grid0.Coords, EltTy.bits .f32 = 32 ∨ (Rect.block (s := S300x1500) S300x1500.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1500.size a ≤ S1x1500.size a
  hwx0_2 : ∀ i : grid0.Coords, EltTy.bits .f32 = 32 ∨ (Rect.block (s := S1x1500) S1x1500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S10000x128.size a
  hwx0_3 : ∀ i : grid0.Coords, EltTy.bits .bf16 = 32 ∨ (Rect.block (s := S10000x128) S10000x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1500x1500.size a ≤ S1500x1500.size a
  hwx0_4 : ∀ i : grid0.Coords, EltTy.bits .bf16 = 32 ∨ (Rect.block (s := S1500x1500) S1500x1500.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1500x1500.size a ≤ S1500x1500.size a
  hwx0_5 : ∀ i : grid0.Coords, EltTy.bits .bf16 = 32 ∨ (Rect.block (s := S1500x1500) S1500x1500.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x30.size a ≤ S128x30.size a
  hwx0_7 : ∀ i : grid0.Coords, EltTy.bits .f32 = 32 ∨ (Rect.block (s := S128x30) S128x30.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x30.size a ≤ S1x30.size a
  hwx0_8 : ∀ i : grid0.Coords, EltTy.bits .f32 = 32 ∨ (Rect.block (s := S1x30) S1x30.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S30x30.size a ≤ S30x30.size a
  hwx0_9 : ∀ i : grid0.Coords, EltTy.bits .f32 = 32 ∨ (Rect.block (s := S30x30) S30x30.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x30.size a ≤ S1x30.size a
  hwx0_10 : ∀ i : grid0.Coords, EltTy.bits .f32 = 32 ∨ (Rect.block (s := S1x30) S1x30.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S30x2.size a ≤ S30x2.size a
  hwx0_11 : ∀ i : grid0.Coords, EltTy.bits .f32 = 32 ∨ (Rect.block (s := S30x2) S30x2.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2.size a ≤ S1x2.size a
  hwx0_12 : ∀ i : grid0.Coords, EltTy.bits .f32 = 32 ∨ (Rect.block (s := S1x2) S1x2.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1500x2.size a ≤ S1500x2.size a
  hwx0_13 : ∀ i : grid0.Coords, EltTy.bits .f32 = 32 ∨ (Rect.block (s := S1500x2) S1500x2.size (cc0_transform_13 i) (hinb0_13 i)).WholeWords (EltTy.packing .f32)

variable [Facts₀]

def dot_S400x300_S300x1500_S400x1500_1_0_0_1_n_n : DotDims S400x300 S300x1500 S400x1500 where
  lhsContracting := [1]
  rhsContracting := [0]
  lhsNonContracting := [0]
  rhsNonContracting := [1]
  lhsBatch := []
  rhsBatch := []
  wf := dot_S400x300_S300x1500_S400x1500_1_0_0_1_n_n_wf
def dot_S10000x1500_S10000x128_S1500x128_0_0_1_1_n_n : DotDims S10000x1500 S10000x128 S1500x128 where
  lhsContracting := [0]
  rhsContracting := [0]
  lhsNonContracting := [1]
  rhsNonContracting := [1]
  lhsBatch := []
  rhsBatch := []
  wf := dot_S10000x1500_S10000x128_S1500x128_0_0_1_1_n_n_wf
def dot_S1500x1500_S1500x128_S1500x128_1_0_0_1_n_n : DotDims S1500x1500 S1500x128 S1500x128 where
  lhsContracting := [1]
  rhsContracting := [0]
  lhsNonContracting := [0]
  rhsNonContracting := [1]
  lhsBatch := []
  rhsBatch := []
  wf := dot_S1500x1500_S1500x128_S1500x128_1_0_0_1_n_n_wf
def dot_S1500x128_S128x30_S1500x30_1_0_0_1_n_n : DotDims S1500x128 S128x30 S1500x30 where
  lhsContracting := [1]
  rhsContracting := [0]
  lhsNonContracting := [0]
  rhsNonContracting := [1]
  lhsBatch := []
  rhsBatch := []
  wf := dot_S1500x128_S128x30_S1500x30_1_0_0_1_n_n_wf
def dot_S1500x1500_S1500x30_S1500x30_1_0_0_1_n_n : DotDims S1500x1500 S1500x30 S1500x30 where
  lhsContracting := [1]
  rhsContracting := [0]
  lhsNonContracting := [0]
  rhsNonContracting := [1]
  lhsBatch := []
  rhsBatch := []
  wf := dot_S1500x1500_S1500x30_S1500x30_1_0_0_1_n_n_wf
def dot_S1500x30_S30x30_S1500x30_1_0_0_1_n_n : DotDims S1500x30 S30x30 S1500x30 where
  lhsContracting := [1]
  rhsContracting := [0]
  lhsNonContracting := [0]
  rhsNonContracting := [1]
  lhsBatch := []
  rhsBatch := []
  wf := dot_S1500x30_S30x30_S1500x30_1_0_0_1_n_n_wf
def dot_S1500x30_S30x2_S1500x2_1_0_0_1_n_n : DotDims S1500x30 S30x2 S1500x2 where
  lhsContracting := [1]
  rhsContracting := [0]
  lhsNonContracting := [0]
  rhsNonContracting := [1]
  lhsBatch := []
  rhsBatch := []
  wf := dot_S1500x30_S30x2_S1500x2_1_0_0_1_n_n_wf

abbrev win0_0 : Pipeline.Window sig grid0 :=
  Pipeline.Window.ofSpec (Memref.whole main_arg0) S400x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S300x1500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S10000x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1500x1500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1500x1500.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x30.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x30.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S30x30.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x30.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S30x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1500x2.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond1 i == 1#1) | ⟨_ + 14, h⟩ => absurd h (Nat.not_lt.2 (Nat.le_add_left _ _))

class Facts : Prop extends Facts₀ where

variable [Facts]
-- ==== ReferenceIdeal.lean ====
abbrev S10000x300 : Shape := ⟨2, ![10000, 300]⟩
abbrev S1500x1500 : Shape := ⟨2, ![1500, 1500]⟩
abbrev S300x1500 : Shape := ⟨2, ![300, 1500]⟩
abbrev S1500 : Shape := ⟨1, ![1500]⟩
abbrev S10000x128 : Shape := ⟨2, ![10000, 128]⟩
abbrev S128 : Shape := ⟨1, ![128]⟩
abbrev S128x30 : Shape := ⟨2, ![128, 30]⟩
abbrev S30 : Shape := ⟨1, ![30]⟩
abbrev S30x30 : Shape := ⟨2, ![30, 30]⟩
abbrev S30x2 : Shape := ⟨2, ![30, 2]⟩
abbrev S2 : Shape := ⟨1, ![2]⟩
abbrev S10000x1500 : Shape := ⟨2, ![10000, 1500]⟩
abbrev S1x1500 : Shape := ⟨2, ![1, 1500]⟩
abbrev S1500x10000 : Shape := ⟨2, ![1500, 10000]⟩
abbrev S1500x128 : Shape := ⟨2, ![1500, 128]⟩
abbrev S1x128 : Shape := ⟨2, ![1, 128]⟩
abbrev S_ : Shape := ⟨0, ![]⟩
abbrev S1500x30 : Shape := ⟨2, ![1500, 30]⟩
abbrev S1x30 : Shape := ⟨2, ![1, 30]⟩
abbrev S1500x2 : Shape := ⟨2, ![1500, 2]⟩
abbrev S1x2 : Shape := ⟨2, ![1, 2]⟩
abbrev S1500x1 : Shape := ⟨2, ![1500, 1]⟩

abbrev nBuf : Space → Nat
  | .hbm => 55
  | .vmem => 0
  | .smem => 0
  | _ => 0

abbrev bufTy : (tb : Table) → Fin (tcTables nBuf tb) → BufTy
  | .hbm, ⟨0, _⟩ => ⟨S10000x300, .f32⟩
  | .hbm, ⟨1, _⟩ => ⟨S1500x1500, .f32⟩
  | .hbm, ⟨2, _⟩ => ⟨S1500x1500, .f32⟩
  | .hbm, ⟨3, _⟩ => ⟨S300x1500, .f32⟩
  | .hbm, ⟨4, _⟩ => ⟨S1500, .f32⟩
  | .hbm, ⟨5, _⟩ => ⟨S10000x128, .f32⟩
  | .hbm, ⟨6, _⟩ => ⟨S128, .f32⟩
  | .hbm, ⟨7, _⟩ => ⟨S128x30, .f32⟩
  | .hbm, ⟨8, _⟩ => ⟨S30, .f32⟩
  | .hbm, ⟨9, _⟩ => ⟨S30x30, .f32⟩
  | .hbm, ⟨10, _⟩ => ⟨S30, .f32⟩
  | .hbm, ⟨11, _⟩ => ⟨S30x2, .f32⟩
  | .hbm, ⟨12, _⟩ => ⟨S2, .f32⟩
  | .hbm, ⟨13, _⟩ => ⟨S10000x1500, .f32⟩
  | .hbm, ⟨14, _⟩ => ⟨S1x1500, .f32⟩
  | .hbm, ⟨15, _⟩ => ⟨S10000x1500, .f32⟩
  | .hbm, ⟨16, _⟩ => ⟨S10000x1500, .f32⟩
  | .hbm, ⟨17, _⟩ => ⟨S1500x10000, .f32⟩
  | .hbm, ⟨18, _⟩ => ⟨S1500x128, .f32⟩
  | .hbm, ⟨19, _⟩ => ⟨S1500x128, .f32⟩
  | .hbm, ⟨20, _⟩ => ⟨S1x128, .f32⟩
  | .hbm, ⟨21, _⟩ => ⟨S1500x128, .f32⟩
  | .hbm, ⟨22, _⟩ => ⟨S1500x128, .f32⟩
  | .hbm, ⟨23, _⟩ => ⟨S_, .f32⟩
  | .hbm, ⟨24, _⟩ => ⟨S1500x128, .f32⟩
  | .hbm, ⟨25, _⟩ => ⟨S1500x128, .f32⟩
  | .hbm, ⟨26, _⟩ => ⟨S1500x30, .f32⟩
  | .hbm, ⟨27, _⟩ => ⟨S1500x30, .f32⟩
  | .hbm, ⟨28, _⟩ => ⟨S1x30, .f32⟩
  | .hbm, ⟨29, _⟩ => ⟨S1500x30, .f32⟩
  | .hbm, ⟨30, _⟩ => ⟨S1500x30, .f32⟩
  | .hbm, ⟨31, _⟩ => ⟨S1500x30, .f32⟩
  | .hbm, ⟨32, _⟩ => ⟨S1500x30, .f32⟩
  | .hbm, ⟨33, _⟩ => ⟨S1x30, .f32⟩
  | .hbm, ⟨34, _⟩ => ⟨S1500x30, .f32⟩
  | .hbm, ⟨35, _⟩ => ⟨S1500x30, .f32⟩
  | .hbm, ⟨36, _⟩ => ⟨S1500x2, .f32⟩
  | .hbm, ⟨37, _⟩ => ⟨S1x2, .f32⟩
  | .hbm, ⟨38, _⟩ => ⟨S1500x2, .f32⟩
  | .hbm, ⟨39, _⟩ => ⟨S1500x2, .f32⟩
  | .hbm, ⟨40, _⟩ => ⟨S_, .f32⟩
  | .hbm, ⟨41, _⟩ => ⟨S1500, .f32⟩
  | .hbm, ⟨42, _⟩ => ⟨S_, .f32⟩
  | .hbm, ⟨43, _⟩ => ⟨S1500, .f32⟩
  | .hbm, ⟨44, _⟩ => ⟨S1500, .f32⟩
  | .hbm, ⟨45, _⟩ => ⟨S1500x1, .f32⟩
  | .hbm, ⟨46, _⟩ => ⟨S1500x2, .f32⟩
  | .hbm, ⟨47, _⟩ => ⟨S1500x2, .f32⟩
  | .hbm, ⟨48, _⟩ => ⟨S1500x2, .f32⟩
  | .hbm, ⟨49, _⟩ => ⟨S_, .f32⟩
  | .hbm, ⟨50, _⟩ => ⟨S1500, .f32⟩
  | .hbm, ⟨51, _⟩ => ⟨S1500x1, .f32⟩
  | .hbm, ⟨52, _⟩ => ⟨S1500x1, .f32⟩
  | .hbm, ⟨53, _⟩ => ⟨S1500x2, .f32⟩
  | .hbm, ⟨54, _⟩ => ⟨S1500x2, .f32⟩
  | _, _ => ⟨S10000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_cst : Ref sig .tc := ⟨.hbm, 23, rfl⟩
abbrev main_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_cst : Ref sig .tc := ⟨.hbm, 40, rfl⟩
abbrev main_call1_v0 : Ref sig .tc := ⟨.hbm, 41, rfl⟩
abbrev main_call1_cst_0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_cst_1 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_v25 : Ref sig .tc := ⟨.hbm, 54, rfl⟩

abbrev nD : Nat := 1
abbrev τ : Topo := Topo.v7x

variable {F : FTy → Type} [FloatOps F]

class Facts₀ : Prop where
  bcast_S1500_S1x1500_1 : S1500.BroadcastsInDim S1x1500 (![1] : Fin 1 → Fin S1x1500.rank)
  bcast_S1x1500_S10000x1500_0_1 : S1x1500.BroadcastsInDim S10000x1500 (![0, 1] : Fin 2 → Fin S10000x1500.rank)
  transposes_S10000x1500_S1500x10000_1_0 : S10000x1500.Transposes [1, 0] S1500x10000
  bcast_S128_S1x128_1 : S128.BroadcastsInDim S1x128 (![1] : Fin 1 → Fin S1x128.rank)
  bcast_S1x128_S1500x128_0_1 : S1x128.BroadcastsInDim S1500x128 (![0, 1] : Fin 2 → Fin S1500x128.rank)
  bcast_S_S1500x128 : S_.BroadcastsInDim S1500x128 (![] : Fin 0 → Fin S1500x128.rank)
  bcast_S30_S1x30_1 : S30.BroadcastsInDim S1x30 (![1] : Fin 1 → Fin S1x30.rank)
  bcast_S1x30_S1500x30_0_1 : S1x30.BroadcastsInDim S1500x30 (![0, 1] : Fin 2 → Fin S1500x30.rank)
  bcast_S2_S1x2_1 : S2.BroadcastsInDim S1x2 (![1] : Fin 1 → Fin S1x2.rank)
  bcast_S1x2_S1500x2_0_1 : S1x2.BroadcastsInDim S1500x2 (![0, 1] : Fin 2 → Fin S1500x2.rank)
  reducesTo_S1500x2_S1500_d1 : S1500x2.ReducesTo [1] S1500
  h_S_ : 0 < S_.numel
  bcast_S_S1500 : S_.BroadcastsInDim S1500 (![] : Fin 0 → Fin S1500.rank)
  bcast_S1500_S1500x1_0 : S1500.BroadcastsInDim S1500x1 (![0] : Fin 1 → Fin S1500x1.rank)
  bcast_S1500x1_S1500x2_0_1 : S1500x1.BroadcastsInDim S1500x2 (![0, 1] : Fin 2 → Fin S1500x2.rank)
  dot_S10000x300_S300x1500_S10000x1500_1_0_0_1_n_n_wf : DotDims.WF S10000x300 S300x1500 S10000x1500 [1] [0] [0] [1] [] []
  dot_S1500x10000_S10000x128_S1500x128_1_0_0_1_n_n_wf : DotDims.WF S1500x10000 S10000x128 S1500x128 [1] [0] [0] [1] [] []
  dot_S1500x1500_S1500x128_S1500x128_1_0_0_1_n_n_wf : DotDims.WF S1500x1500 S1500x128 S1500x128 [1] [0] [0] [1] [] []
  dot_S1500x128_S128x30_S1500x30_1_0_0_1_n_n_wf : DotDims.WF S1500x128 S128x30 S1500x30 [1] [0] [0] [1] [] []
  dot_S1500x1500_S1500x30_S1500x30_1_0_0_1_n_n_wf : DotDims.WF S1500x1500 S1500x30 S1500x30 [1] [0] [0] [1] [] []
  dot_S1500x30_S30x30_S1500x30_1_0_0_1_n_n_wf : DotDims.WF S1500x30 S30x30 S1500x30 [1] [0] [0] [1] [] []
  dot_S1500x30_S30x2_S1500x2_1_0_0_1_n_n_wf : DotDims.WF S1500x30 S30x2 S1500x2 [1] [0] [0] [1] [] []

variable [Facts₀]

def dot_S10000x300_S300x1500_S10000x1500_1_0_0_1_n_n : DotDims S10000x300 S300x1500 S10000x1500 where
  lhsContracting := [1]
  rhsContracting := [0]
  lhsNonContracting := [0]
  rhsNonContracting := [1]
  lhsBatch := []
  rhsBatch := []
  wf := dot_S10000x300_S300x1500_S10000x1500_1_0_0_1_n_n_wf
def dot_S1500x10000_S10000x128_S1500x128_1_0_0_1_n_n : DotDims S1500x10000 S10000x128 S1500x128 where
  lhsContracting := [1]
  rhsContracting := [0]
  lhsNonContracting := [0]
  rhsNonContracting := [1]
  lhsBatch := []
  rhsBatch := []
  wf := dot_S1500x10000_S10000x128_S1500x128_1_0_0_1_n_n_wf
def dot_S1500x1500_S1500x128_S1500x128_1_0_0_1_n_n : DotDims S1500x1500 S1500x128 S1500x128 where
  lhsContracting := [1]
  rhsContracting := [0]
  lhsNonContracting := [0]
  rhsNonContracting := [1]
  lhsBatch := []
  rhsBatch := []
  wf := dot_S1500x1500_S1500x128_S1500x128_1_0_0_1_n_n_wf
def dot_S1500x128_S128x30_S1500x30_1_0_0_1_n_n : DotDims S1500x128 S128x30 S1500x30 where
  lhsContracting := [1]
  rhsContracting := [0]
  lhsNonContracting := [0]
  rhsNonContracting := [1]
  lhsBatch := []
  rhsBatch := []
  wf := dot_S1500x128_S128x30_S1500x30_1_0_0_1_n_n_wf
def dot_S1500x1500_S1500x30_S1500x30_1_0_0_1_n_n : DotDims S1500x1500 S1500x30 S1500x30 where
  lhsContracting := [1]
  rhsContracting := [0]
  lhsNonContracting := [0]
  rhsNonContracting := [1]
  lhsBatch := []
  rhsBatch := []
  wf := dot_S1500x1500_S1500x30_S1500x30_1_0_0_1_n_n_wf
def dot_S1500x30_S30x30_S1500x30_1_0_0_1_n_n : DotDims S1500x30 S30x30 S1500x30 where
  lhsContracting := [1]
  rhsContracting := [0]
  lhsNonContracting := [0]
  rhsNonContracting := [1]
  lhsBatch := []
  rhsBatch := []
  wf := dot_S1500x30_S30x30_S1500x30_1_0_0_1_n_n_wf
def dot_S1500x30_S30x2_S1500x2_1_0_0_1_n_n : DotDims S1500x30 S30x2 S1500x2 where
  lhsContracting := [1]
  rhsContracting := [0]
  lhsNonContracting := [0]
  rhsNonContracting := [1]
  lhsBatch := []
  rhsBatch := []
  wf := dot_S1500x30_S30x2_S1500x2_1_0_0_1_n_n_wf

class Facts : Prop extends Facts₀ where

variable [Facts]
-- ==== Proof.KBody.lean ====
import proofs.«149645_g64390149702081_cont_9to1_m_674_16_alg».proof.Proof.Gen.Kernel.Frame
import proofs.«149645_g64390149702081_cont_9to1_m_674_16_alg».proof.Proof.Gen.Kernel.Skeleton
import Idealize.ShloMosaic.Lib.WritesUnit
import Idealize.ShloMosaic.Lib.Pipeline.Value

set_option maxRecDepth 16384

/-!
  One run of the kernel's body, at any float instance.

  At every grid point the body multiplies its 400 rows of the features by the first weight, adds the bias, and
  stores the 400×1500 result into rows [400·t, 400·t + 400), t the point's number, of a buffer it carries from point to point. At the
  last point only, it then loads the whole carried buffer (by then every row has been stored), runs the rest of
  the network on it and stores the 1500×2 result into the output block. The two triples below say exactly
  that: every input block is handed back unchanged, the carried buffer ends with the point's rows replaced, and
  the output block is untouched (first case) or holds the network's result (last point).
-/

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch is taken at the grid's last point only. -/
abbrev lastPt (i : grid0.Coords) : Prop := k0_cond1 i = 1#1

/-- The zero offsets of a rank-two whole-buffer access, as the constant function. -/
theorem zeros2 : (![0, 0] : Fin 2 → ℕ) = fun _ => 0 := funext fun a => by fin_cases a <;> rfl

/-- The rows a grid point writes into the carried buffer: 400 rows of 1500 lanes at the point's offset. -/
def slab (i : grid0.Coords) (x0 : Vec F S400x300 .f32) (x1 : Vec F S300x1500 .f32) (x2 : Vec F S1x1500 .f32) :
    View.Piece (Elt F) S10000x1500 .bf16 :=
  ⟨Rect.unit (s := S10000x1500) (k0_off1 i) S400x1500.size (k0_off1_inb i), k0_pay1 x0 x1 x2⟩

/-- The carried buffer after the point's store, read through its memref: the previous contents with the point's rows replaced. -/
def stored (arg15 : Memref sig .tc .vmem S10000x1500 .bf16) (harg15 : arg15.IsWhole) (i : grid0.Coords)
    (xs : Vec F S10000x1500 .bf16) (x0 : Vec F S400x300 .f32) (x1 : Vec F S300x1500 .f32) (x2 : Vec F S1x1500 .f32) :
    Vec F S10000x1500 .bf16 :=
  arg15.view.read (Elt F) (arg15.view.writes (Elt F) (harg15.unread xs) [slab i x0 x1 x2])

/-- What the last point stores into the output block, from the carried buffer's full contents `H` and the resident operands. -/
def tailOut (H : Vec F S10000x1500 .bf16) (x3 : Vec F S10000x128 .bf16) (x4 : Vec F S1500x1500 .bf16) (x5 : Vec F S1500x1500 .bf16) (x6 : Vec F S1x128 .f32) (x7 : Vec F S128x30 .f32) (x8 : Vec F S1x30 .f32) (x9 : Vec F S30x30 .f32) (x10 : Vec F S1x30 .f32) (x11 : Vec F S30x2 .f32) (x12 : Vec F S1x2 .f32) : Vec F S1500x2 .f32 :=
  k0_pay2 (k0_pay3 H x3 x4 x6 x7 x8 x9 x5) (k0_pay4 x10) x11 x12

omit [FloatOps F] in
/-- One store through the whole-buffer rectangle (zero offsets, the buffer's own sizes) reads back as its payload,
    whatever the buffer held. -/
theorem read_store_whole {Val : EltTy → Type} [∀ e, Nonempty (Val e)] {sig' : RefSig} {κ : Kind} {sp : Space} {S : Shape} {e : EltTy}
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

set_option maxHeartbeats 1000000 in
/-- The body at a point that is not the last: the point's rows are stored, the output block is not touched. -/
theorem run_inner (c : Dev nD) (i : grid0.Coords) (arg1 : Memref sig .tc .vmem S400x300 .f32) (harg1 : arg1.IsWhole) (arg2 : Memref sig .tc .vmem S300x1500 .f32) (harg2 : arg2.IsWhole) (arg3 : Memref sig .tc .vmem S1x1500 .f32) (harg3 : arg3.IsWhole) (arg4 : Memref sig .tc .vmem S10000x128 .bf16) (harg4 : arg4.IsWhole) (arg5 : Memref sig .tc .vmem S1500x1500 .bf16) (harg5 : arg5.IsWhole) (arg6 : Memref sig .tc .vmem S1500x1500 .bf16) (harg6 : arg6.IsWhole) (arg7 : Memref sig .tc .vmem S1x128 .f32) (harg7 : arg7.IsWhole) (arg8 : Memref sig .tc .vmem S128x30 .f32) (harg8 : arg8.IsWhole) (arg9 : Memref sig .tc .vmem S1x30 .f32) (harg9 : arg9.IsWhole) (arg10 : Memref sig .tc .vmem S30x30 .f32) (harg10 : arg10.IsWhole) (arg11 : Memref sig .tc .vmem S1x30 .f32) (harg11 : arg11.IsWhole) (arg12 : Memref sig .tc .vmem S30x2 .f32) (harg12 : arg12.IsWhole) (arg13 : Memref sig .tc .vmem S1x2 .f32) (harg13 : arg13.IsWhole) (arg14 : Memref sig .tc .vmem S1500x2 .f32) (harg14 : arg14.IsWhole) (arg15 : Memref sig .tc .vmem S10000x1500 .bf16) (harg15 : arg15.IsWhole) (hc0 : ¬lastPt i)
    (x0 : Vec F S400x300 .f32) (x1 : Vec F S300x1500 .f32) (x2 : Vec F S1x1500 .f32) (x3 : Vec F S10000x128 .bf16) (x4 : Vec F S1500x1500 .bf16) (x5 : Vec F S1500x1500 .bf16) (x6 : Vec F S1x128 .f32) (x7 : Vec F S128x30 .f32) (x8 : Vec F S1x30 .f32) (x9 : Vec F S30x30 .f32) (x10 : Vec F S1x30 .f32) (x11 : Vec F S30x2 .f32) (x12 : Vec F S1x2 .f32) (xo : Vec F S1500x2 .f32) (xs : Vec F S10000x1500 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare (stored arg15 harg15 i xs x0 x1 x2)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    iexists _; isplitr; swap; · iexact HS0
    ipureintro
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S400x300) zeros2, View.ld_unit_zero (S := S300x1500) zeros2, View.ld_unit_zero (S := S1x1500) zeros2, View.ld_unit_zero (S := S10000x128) zeros2, View.ld_unit_zero (S := S1500x1500) zeros2, View.ld_unit_zero (S := S1x128) zeros2, View.ld_unit_zero (S := S128x30) zeros2, View.ld_unit_zero (S := S1x30) zeros2, View.ld_unit_zero (S := S30x30) zeros2, View.ld_unit_zero (S := S30x2) zeros2, View.ld_unit_zero (S := S1x2) zeros2, View.ld_unit_zero (S := S10000x1500) zeros2]
    unfold stored slab
    rfl

set_option maxHeartbeats 4000000 in
/-- The body at the last point: the point's rows are stored, then the whole carried buffer is read back and the
    network's result is stored over the whole output block. -/
theorem run_last (c : Dev nD) (i : grid0.Coords) (arg1 : Memref sig .tc .vmem S400x300 .f32) (harg1 : arg1.IsWhole) (arg2 : Memref sig .tc .vmem S300x1500 .f32) (harg2 : arg2.IsWhole) (arg3 : Memref sig .tc .vmem S1x1500 .f32) (harg3 : arg3.IsWhole) (arg4 : Memref sig .tc .vmem S10000x128 .bf16) (harg4 : arg4.IsWhole) (arg5 : Memref sig .tc .vmem S1500x1500 .bf16) (harg5 : arg5.IsWhole) (arg6 : Memref sig .tc .vmem S1500x1500 .bf16) (harg6 : arg6.IsWhole) (arg7 : Memref sig .tc .vmem S1x128 .f32) (harg7 : arg7.IsWhole) (arg8 : Memref sig .tc .vmem S128x30 .f32) (harg8 : arg8.IsWhole) (arg9 : Memref sig .tc .vmem S1x30 .f32) (harg9 : arg9.IsWhole) (arg10 : Memref sig .tc .vmem S30x30 .f32) (harg10 : arg10.IsWhole) (arg11 : Memref sig .tc .vmem S1x30 .f32) (harg11 : arg11.IsWhole) (arg12 : Memref sig .tc .vmem S30x2 .f32) (harg12 : arg12.IsWhole) (arg13 : Memref sig .tc .vmem S1x2 .f32) (harg13 : arg13.IsWhole) (arg14 : Memref sig .tc .vmem S1500x2 .f32) (harg14 : arg14.IsWhole) (arg15 : Memref sig .tc .vmem S10000x1500 .bf16) (harg15 : arg15.IsWhole) (hc0 : lastPt i)
    (x0 : Vec F S400x300 .f32) (x1 : Vec F S300x1500 .f32) (x2 : Vec F S1x1500 .f32) (x3 : Vec F S10000x128 .bf16) (x4 : Vec F S1500x1500 .bf16) (x5 : Vec F S1500x1500 .bf16) (x6 : Vec F S1x128 .f32) (x7 : Vec F S128x30 .f32) (x8 : Vec F S1x30 .f32) (x9 : Vec F S30x30 .f32) (x10 : Vec F S1x30 .f32) (x11 : Vec F S30x2 .f32) (x12 : Vec F S1x2 .f32) (xo : Vec F S1500x2 .f32) (xs : Vec F S10000x1500 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (tailOut (stored arg15 harg15 i xs x0 x1 x2) x3 x4 x5 x6 x7 x8 x9 x10 x11 x12) ∗ owns (c : Thread nD τ) arg15 fullShare (stored arg15 harg15 i xs x0 x1 x2)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__fused_eq_skeleton]; unfold cc0__fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; swap; · iexact H13
      ipureintro
      sl_unfold_run_names
      simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S400x300) zeros2, View.ld_unit_zero (S := S300x1500) zeros2, View.ld_unit_zero (S := S1x1500) zeros2, View.ld_unit_zero (S := S10000x128) zeros2, View.ld_unit_zero (S := S1500x1500) zeros2, View.ld_unit_zero (S := S1x128) zeros2, View.ld_unit_zero (S := S128x30) zeros2, View.ld_unit_zero (S := S1x30) zeros2, View.ld_unit_zero (S := S30x30) zeros2, View.ld_unit_zero (S := S30x2) zeros2, View.ld_unit_zero (S := S1x2) zeros2, View.ld_unit_zero (S := S10000x1500) zeros2]
      refine (read_store_whole (S := S1500x2) arg14.view _ zeros2 inb_S1500x2_S1500x2_0_0 _).trans ?_
      unfold tailOut stored slab
      rfl
    iexists _; isplitr; swap; · iexact HS0
    ipureintro
    sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S400x300) zeros2, View.ld_unit_zero (S := S300x1500) zeros2, View.ld_unit_zero (S := S1x1500) zeros2, View.ld_unit_zero (S := S10000x128) zeros2, View.ld_unit_zero (S := S1500x1500) zeros2, View.ld_unit_zero (S := S1x128) zeros2, View.ld_unit_zero (S := S128x30) zeros2, View.ld_unit_zero (S := S1x30) zeros2, View.ld_unit_zero (S := S30x30) zeros2, View.ld_unit_zero (S := S30x2) zeros2, View.ld_unit_zero (S := S1x2) zeros2, View.ld_unit_zero (S := S10000x1500) zeros2]
    unfold stored slab
    rfl

end Cert.Kernel.Body

end
-- ==== Proof.KFrame.lean ====
import proofs.«149645_g64390149702081_cont_9to1_m_674_16_alg».proof.Proof.KBody

set_option maxRecDepth 16384

/-!
  The kernel's run over its 25 grid points, at any float instance.

  Between points the kernel keeps a 10000×1500 buffer. Before point `n` its rows below `400·n` hold the first
  layer's result for those rows (row `r` computed from block `r / 400` of the features), and nothing is known of
  the other rows; point `n` fills rows `[400·n, 400·n + 400)`. At the last point every earlier row is there, the
  point's own rows are stored first, so the whole buffer it then reads is the first layer's full result, and the
  output block it writes back is a function of the argument arrays alone.
-/

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule over the 25 points -/

/-- The body's branch is taken at point 24 and at no other. -/
theorem lastPt_iff : ∀ t : Fin cfg0.N, lastPt (grid0.coords t) ↔ t.val = 24 :=
  (by decide +kernel : ∀ t : Fin grid0.N, lastPt (grid0.coords t) ↔ t.val = 24)

/-- Point `t` stores rows `[400·t, 400·t + 400)`, all lanes. -/
theorem rows_at : ∀ t : Fin cfg0.N, k0_off1 (grid0.coords t) = ![400 * t.val, 0] :=
  (by decide +kernel : ∀ t : Fin grid0.N, k0_off1 (grid0.coords t) = ![400 * t.val, 0])

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
/-- The output window is idle except at the last point, where the body stores into it. -/
theorem out_idle : ∀ t : Fin cfg0.N, t.val ≠ 24 → cfg0.idle 13 (grid0.coords t) = true :=
  (by decide +kernel : ∀ t : Fin grid0.N, t.val ≠ 24 → cfg0.idle 13 (grid0.coords t) = true)
/-- At the last point the output window is live. -/
theorem out_live : ∀ t : Fin cfg0.N, t.val = 24 → cfg0.idle 13 (grid0.coords t) = false :=
  (by decide +kernel : ∀ t : Fin grid0.N, t.val = 24 → cfg0.idle 13 (grid0.coords t) = false)
/-- The output window is written back at the last point only. -/
theorem out_noflush (t : Fin cfg0.N) (h : t.val ≠ 24) : (cfg0.win 13).flush t = false := by
  have hN : t.val < 25 := lt_of_lt_of_eq t.isLt (show cfg0.N = 25 from N_0)
  cases hf : (cfg0.win 13).flush t
  · rfl
  · exact absurd ((flush0_13 t).mp hf) (by omega)

/-! ## The staging buffers at a point, and the carried buffer -/

abbrev buf0 (t : Fin cfg0.N) : Memref sig .tc .vmem S400x300 .f32 := win0_0.stage (cfg0.slots t 0)
abbrev wh0 (t : Fin cfg0.N) : (buf0 t).IsWhole := hstage0_0 ((cfg0.slots t 0).cast nbuf0_0)
abbrev buf1 (t : Fin cfg0.N) : Memref sig .tc .vmem S300x1500 .f32 := win0_1.stage (cfg0.slots t 1)
abbrev wh1 (t : Fin cfg0.N) : (buf1 t).IsWhole := hstage0_1 ((cfg0.slots t 1).cast nbuf0_1)
abbrev buf2 (t : Fin cfg0.N) : Memref sig .tc .vmem S1x1500 .f32 := win0_2.stage (cfg0.slots t 2)
abbrev wh2 (t : Fin cfg0.N) : (buf2 t).IsWhole := hstage0_2 ((cfg0.slots t 2).cast nbuf0_2)
abbrev buf3 (t : Fin cfg0.N) : Memref sig .tc .vmem S10000x128 .bf16 := win0_3.stage (cfg0.slots t 3)
abbrev wh3 (t : Fin cfg0.N) : (buf3 t).IsWhole := hstage0_3 ((cfg0.slots t 3).cast nbuf0_3)
abbrev buf4 (t : Fin cfg0.N) : Memref sig .tc .vmem S1500x1500 .bf16 := win0_4.stage (cfg0.slots t 4)
abbrev wh4 (t : Fin cfg0.N) : (buf4 t).IsWhole := hstage0_4 ((cfg0.slots t 4).cast nbuf0_4)
abbrev buf5 (t : Fin cfg0.N) : Memref sig .tc .vmem S1500x1500 .bf16 := win0_5.stage (cfg0.slots t 5)
abbrev wh5 (t : Fin cfg0.N) : (buf5 t).IsWhole := hstage0_5 ((cfg0.slots t 5).cast nbuf0_5)
abbrev buf6 (t : Fin cfg0.N) : Memref sig .tc .vmem S1x128 .f32 := win0_6.stage (cfg0.slots t 6)
abbrev wh6 (t : Fin cfg0.N) : (buf6 t).IsWhole := hstage0_6 ((cfg0.slots t 6).cast nbuf0_6)
abbrev buf7 (t : Fin cfg0.N) : Memref sig .tc .vmem S128x30 .f32 := win0_7.stage (cfg0.slots t 7)
abbrev wh7 (t : Fin cfg0.N) : (buf7 t).IsWhole := hstage0_7 ((cfg0.slots t 7).cast nbuf0_7)
abbrev buf8 (t : Fin cfg0.N) : Memref sig .tc .vmem S1x30 .f32 := win0_8.stage (cfg0.slots t 8)
abbrev wh8 (t : Fin cfg0.N) : (buf8 t).IsWhole := hstage0_8 ((cfg0.slots t 8).cast nbuf0_8)
abbrev buf9 (t : Fin cfg0.N) : Memref sig .tc .vmem S30x30 .f32 := win0_9.stage (cfg0.slots t 9)
abbrev wh9 (t : Fin cfg0.N) : (buf9 t).IsWhole := hstage0_9 ((cfg0.slots t 9).cast nbuf0_9)
abbrev buf10 (t : Fin cfg0.N) : Memref sig .tc .vmem S1x30 .f32 := win0_10.stage (cfg0.slots t 10)
abbrev wh10 (t : Fin cfg0.N) : (buf10 t).IsWhole := hstage0_10 ((cfg0.slots t 10).cast nbuf0_10)
abbrev buf11 (t : Fin cfg0.N) : Memref sig .tc .vmem S30x2 .f32 := win0_11.stage (cfg0.slots t 11)
abbrev wh11 (t : Fin cfg0.N) : (buf11 t).IsWhole := hstage0_11 ((cfg0.slots t 11).cast nbuf0_11)
abbrev buf12 (t : Fin cfg0.N) : Memref sig .tc .vmem S1x2 .f32 := win0_12.stage (cfg0.slots t 12)
abbrev wh12 (t : Fin cfg0.N) : (buf12 t).IsWhole := hstage0_12 ((cfg0.slots t 12).cast nbuf0_12)
abbrev buf13 (t : Fin cfg0.N) : Memref sig .tc .vmem S1500x2 .f32 := win0_13.stage (cfg0.slots t 13)
abbrev wh13 (t : Fin cfg0.N) : (buf13 t).IsWhole := hstage0_13 ((cfg0.slots t 13).cast nbuf0_13)

/-- The buffer the kernel carries from point to point. -/
abbrev carry : Memref sig .tc .vmem S10000x1500 .bf16 := Memref.whole cc0_scratch0

/-- What the region's invariant holds besides the windows: the carried buffer at some contents, and the generator register. -/
theorem rest_eq (c : Dev nD) :
    (Pipeline.ΦA spec0 c : sProp 𝕄)
      = iprop(iprop((∃ d, owns (c : Thread nD τ) carry fullShare d)) ∗ (∃ r, prngReg c r)) := by
  unfold Pipeline.ΦA; rw [scopedRest0_eq]; simp only [carry, owns_whole]; try rfl

/-! ## The carried buffer's rows -/

/-- The rows point `t` computes: its block of the features through the first layer. -/
def rowsOf (c : Dev nD) (t : Fin cfg0.N) : Vec F S400x1500 .bf16 :=
  k0_pay1 (iblk m c 0 t) (iblk m c 1 t) (iblk m c 2 t)

/-- The point that stores row `y 0`. -/
def ptOf (y : S10000x1500.Idx) : Fin cfg0.N := ⟨(y 0).val / 400, by
  have h : (y 0).val < 10000 := (y 0).isLt
  have hN : cfg0.N = 25 := N_0
  omega⟩

/-- Where an entry of the carried buffer sits inside its point's 400 rows. -/
def inRows (y : S10000x1500.Idx) : S400x1500.Idx := fun a => match a with
  | ⟨0, _⟩ => ⟨(y 0).val % 400, Nat.mod_lt _ (by decide)⟩
  | ⟨1, _⟩ => ⟨(y 1).val, (y 1).isLt⟩

theorem inRows_row (y : S10000x1500.Idx) : (inRows y 0).val = (y 0).val % 400 := rfl
theorem inRows_lane (y : S10000x1500.Idx) : (inRows y 1).val = (y 1).val := rfl

/-- The carried buffer once every point has stored: the first layer's full result. -/
def hidden (c : Dev nD) : Vec F S10000x1500 .bf16 := fun y => rowsOf m c (ptOf y) (inRows y)

/-- Before point `n`: the rows below `400·n` are the first layer's. -/
def Filled (c : Dev nD) (n : ℕ) (d : Vec F S10000x1500 .bf16) : Prop :=
  ∀ y : S10000x1500.Idx, (y 0).val < 400 * n → d y = hidden m c y

omit m in
/-- An entry inside the rows point `t` stores reads the stored rows there. -/
theorem stored_in (arg15 : Memref sig .tc .vmem S10000x1500 .bf16) (harg15 : arg15.IsWhole) (t : Fin cfg0.N)
    (xs : Vec F S10000x1500 .bf16) (x0 : Vec F S400x300 .f32) (x1 : Vec F S300x1500 .f32) (x2 : Vec F S1x1500 .f32)
    (y : S10000x1500.Idx) (x : S400x1500.Idx) (h0 : (y 0).val = 400 * t.val + (x 0).val) (h1 : (y 1).val = (x 1).val) :
    stored arg15 harg15 (grid0.coords t) xs x0 x1 x2 y = k0_pay1 x0 x1 x2 x := by
  unfold stored slab
  exact View.read_writes_cons_rows_of_mem arg15.view (harg15.unread xs) (k0_off1_inb (grid0.coords t)) (k0_pay1 x0 x1 x2) [] y x
    (rows_at t) h0 h1

omit m in
/-- An entry outside them reads what the buffer held. -/
theorem stored_out (arg15 : Memref sig .tc .vmem S10000x1500 .bf16) (harg15 : arg15.IsWhole) (t : Fin cfg0.N)
    (xs : Vec F S10000x1500 .bf16) (x0 : Vec F S400x300 .f32) (x1 : Vec F S300x1500 .f32) (x2 : Vec F S1x1500 .f32)
    (y : S10000x1500.Idx) (h : (y 0).val < 400 * t.val ∨ 400 * t.val + 400 ≤ (y 0).val) :
    stored arg15 harg15 (grid0.coords t) xs x0 x1 x2 y = xs y := by
  unfold stored slab
  rw [View.read_writes_cons_rows_of_not_mem arg15.view (harg15.unread xs) (k0_off1_inb (grid0.coords t)) (k0_pay1 x0 x1 x2) [] y
    (rows_at t) (W := 400) rfl h, View.writes_nil, harg15.read_unread]

/-- A point's store extends the filled rows by its own. -/
theorem filled_succ (c : Dev nD) (arg15 : Memref sig .tc .vmem S10000x1500 .bf16) (harg15 : arg15.IsWhole) (t : Fin cfg0.N)
    (d : Vec F S10000x1500 .bf16) (hd : Filled m c t.val d) :
    Filled m c (t.val + 1) (stored arg15 harg15 (grid0.coords t) d (iblk m c 0 t) (iblk m c 1 t) (iblk m c 2 t)) := by
  intro y hy
  by_cases h : (y 0).val < 400 * t.val
  · rw [stored_out arg15 harg15 t d _ _ _ y (Or.inl h)]; exact hd y h
  · have hp : ptOf y = t := Fin.ext (by show (y 0).val / 400 = t.val; omega)
    rw [stored_in arg15 harg15 t d _ _ _ y (inRows y) (by rw [inRows_row]; omega) (inRows_lane y).symm]
    unfold hidden; rw [hp]; rfl

/-- At the last point the store completes the buffer: whatever its other rows held, it now is the first layer's result. -/
theorem stored_last (c : Dev nD) (arg15 : Memref sig .tc .vmem S10000x1500 .bf16) (harg15 : arg15.IsWhole) (t : Fin cfg0.N)
    (ht : t.val = 24) (d : Vec F S10000x1500 .bf16) (hd : Filled m c t.val d) :
    stored arg15 harg15 (grid0.coords t) d (iblk m c 0 t) (iblk m c 1 t) (iblk m c 2 t) = hidden m c := by
  funext y
  have hy : (y 0).val < 10000 := (y 0).isLt
  exact filled_succ m c arg15 harg15 t d hd y (by omega)

/-! ## The pipeline's proof data -/

/-- The invariant before point `n`: the carried buffer with its first `400·n` rows filled, and the generator register. -/
def carried (c : Dev nD) (n : ℕ) : sProp 𝕄 :=
  iprop(iprop((∃ d, ⌜Filled m c n d⌝ ∗ owns (c : Thread nD τ) carry fullShare d)) ∗ (∃ r, prngReg c r))

/-- What the last point leaves in the output block: the rest of the network on the full first-layer result. -/
def netOut (c : Dev nD) (t : Fin cfg0.N) : Vec F S1500x2 .f32 :=
  tailOut (hidden m c) (iblk m c 3 t) (iblk m c 4 t) (iblk m c 5 t) (iblk m c 6 t) (iblk m c 7 t) (iblk m c 8 t) (iblk m c 9 t) (iblk m c 10 t) (iblk m c 11 t) (iblk m c 12 t)

/-- Each input's buffer is left at its block; the output's at the network's result (consulted at the last point only,
    the window being idle before). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => netOut m c t
  Φ t := carried m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = netOut m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d))
    ∗ (∃ d, owns (c : Thread nD τ) (buf13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 2400000 in
/-- The body at any point: the inputs' buffers hold their blocks; the carried buffer comes in with the rows below the
    point filled and goes out with the point's rows added; the output buffer is handed back untouched before the last
    point and holds the network's result at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.castSucc = carried m c t.val from rfl, show (dats m 0 c).Φ t.succ = carried m c (t.val + 1) from rfl]
  unfold carried
  rw [show (dats m 0 c).leavesExact 0 t = owns (c : Thread nD τ) (buf0 t) fullShare ((dats m 0 c).after 0 t) from by
    unfold Dat.leavesExact; rw [live0 t], after0]
  rw [show (dats m 0 c).leavesExact 1 t = owns (c : Thread nD τ) (buf1 t) fullShare ((dats m 0 c).after 1 t) from by
    unfold Dat.leavesExact; rw [live1 t], after1]
  rw [show (dats m 0 c).leavesExact 2 t = owns (c : Thread nD τ) (buf2 t) fullShare ((dats m 0 c).after 2 t) from by
    unfold Dat.leavesExact; rw [live2 t], after2]
  rw [show (dats m 0 c).leavesExact 3 t = owns (c : Thread nD τ) (buf3 t) fullShare ((dats m 0 c).after 3 t) from by
    unfold Dat.leavesExact; rw [live3 t], after3]
  rw [show (dats m 0 c).leavesExact 4 t = owns (c : Thread nD τ) (buf4 t) fullShare ((dats m 0 c).after 4 t) from by
    unfold Dat.leavesExact; rw [live4 t], after4]
  rw [show (dats m 0 c).leavesExact 5 t = owns (c : Thread nD τ) (buf5 t) fullShare ((dats m 0 c).after 5 t) from by
    unfold Dat.leavesExact; rw [live5 t], after5]
  rw [show (dats m 0 c).leavesExact 6 t = owns (c : Thread nD τ) (buf6 t) fullShare ((dats m 0 c).after 6 t) from by
    unfold Dat.leavesExact; rw [live6 t], after6]
  rw [show (dats m 0 c).leavesExact 7 t = owns (c : Thread nD τ) (buf7 t) fullShare ((dats m 0 c).after 7 t) from by
    unfold Dat.leavesExact; rw [live7 t], after7]
  rw [show (dats m 0 c).leavesExact 8 t = owns (c : Thread nD τ) (buf8 t) fullShare ((dats m 0 c).after 8 t) from by
    unfold Dat.leavesExact; rw [live8 t], after8]
  rw [show (dats m 0 c).leavesExact 9 t = owns (c : Thread nD τ) (buf9 t) fullShare ((dats m 0 c).after 9 t) from by
    unfold Dat.leavesExact; rw [live9 t], after9]
  rw [show (dats m 0 c).leavesExact 10 t = owns (c : Thread nD τ) (buf10 t) fullShare ((dats m 0 c).after 10 t) from by
    unfold Dat.leavesExact; rw [live10 t], after10]
  rw [show (dats m 0 c).leavesExact 11 t = owns (c : Thread nD τ) (buf11 t) fullShare ((dats m 0 c).after 11 t) from by
    unfold Dat.leavesExact; rw [live11 t], after11]
  rw [show (dats m 0 c).leavesExact 12 t = owns (c : Thread nD τ) (buf12 t) fullShare ((dats m 0 c).after 12 t) from by
    unfold Dat.leavesExact; rw [live12 t], after12]
  by_cases h0 : t.val = 24
  · rw [show (dats m 0 c).leavesExact 13 t = owns (c : Thread nD τ) (buf13 t) fullShare ((dats m 0 c).after 13 t) from by
      unfold Dat.leavesExact; rw [out_live t h0], after13]
    iintro ⟨⟨⟨%d, %hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((run_last c (grid0.coords t) _ _ _ _ _ _ _ _ _ _ _ _ _ _ _ _ _ _ _ _ _ _ _ _ _ _ _ _ carry (Memref.isWhole_whole _) ((lastPt_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ d) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    iintro ⟨H0, H1, H2, H3, H4, H5, H6, H7, H8, H9, H10, H11, H12, H13, HS0⟩
    isplitl [HS0 Hg]
    · isplitl [HS0]
      · iexists _; isplitr; · ipureintro; exact filled_succ m c carry (Memref.isWhole_whole _) t d hd
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold netOut
    rw [← stored_last m c carry (Memref.isWhole_whole _) t h0 d hd]
    iexact H13
  · rw [Dat.leavesExact_idle (dats m 0 c) 13 t (out_idle t h0) (out_noflush t h0)]
    iintro ⟨⟨⟨%d, %hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((run_inner c (grid0.coords t) _ _ _ _ _ _ _ _ _ _ _ _ _ _ _ _ _ _ _ _ _ _ _ _ _ _ _ _ carry (Memref.isWhole_whole _) (fun h => h0 ((lastPt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ d) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    iintro ⟨H0, H1, H2, H3, H4, H5, H6, H7, H8, H9, H10, H11, H12, H13, HS0⟩
    isplitl [HS0 Hg]
    · isplitl [HS0]
      · iexists _; isplitr; · ipureintro; exact filled_succ m c carry (Memref.isWhole_whole _) t d hd
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists _; iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-- At the region's entry nothing is filled yet. -/
theorem enter (c : Dev nD) : Pipeline.ΦA spec0 c ⊢ (dats m 0 c).Φ 0 := by
  rw [show (dats m 0 c).Φ 0 = carried m c 0 from rfl, rest_eq]; unfold carried
  iintro ⟨⟨%d, HS0⟩, Hg⟩
  isplitl [HS0]
  · iexists d; isplitr; · ipureintro; exact fun y hy => absurd hy (by omega)
    iexact HS0
  iexact Hg

/-- After the last point the carried buffer's contents are forgotten again. -/
theorem leave (c : Dev nD) : (dats m 0 c).Φ (Fin.last cfg0.N) ⊢ Pipeline.ΦA spec0 c := by
  rw [show (dats m 0 c).Φ (Fin.last cfg0.N) = carried m c (Fin.last cfg0.N).val from rfl, rest_eq]; unfold carried
  iintro ⟨⟨%d, %hd, HS0⟩, Hg⟩
  isplitl [HS0]
  · iexists d; iexact HS0
  iexact Hg

/-! ## The run -/

set_option backward.isDefEq.respectTransparency.types false in
/-- Every weakly fair execution of the program terminates; every array of the pipeline ends at what the library
    computes from the proof data, every other unscoped buffer at its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The frame: the program runs and its thirteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Body

end
-- ==== Proof.KIBody.lean ====
import proofs.«149645_g64390149702081_cont_9to1_m_674_16_alg».proof.Proof.Gen.KernelIdeal.Frame
import proofs.«149645_g64390149702081_cont_9to1_m_674_16_alg».proof.Proof.Gen.KernelIdeal.Skeleton
import Idealize.ShloMosaic.Lib.WritesUnit
import Idealize.ShloMosaic.Lib.Pipeline.Value

set_option maxRecDepth 16384

/-!
  One run of the kernel's body, at any float instance.

  At every grid point the body multiplies its 400 rows of the features by the first weight, adds the bias, and
  stores the 400×1500 result into rows [400·t, 400·t + 400), t the point's number, of a buffer it carries from point to point. At the
  last point only, it then loads the whole carried buffer (by then every row has been stored), runs the rest of
  the network on it and stores the 1500×2 result into the output block. The two triples below say exactly
  that: every input block is handed back unchanged, the carried buffer ends with the point's rows replaced, and
  the output block is untouched (first case) or holds the network's result (last point).
-/

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch is taken at the grid's last point only. -/
abbrev lastPt (i : grid0.Coords) : Prop := k0_cond1 i = 1#1

/-- The zero offsets of a rank-two whole-buffer access, as the constant function. -/
theorem zeros2 : (![0, 0] : Fin 2 → ℕ) = fun _ => 0 := funext fun a => by fin_cases a <;> rfl

/-- The rows a grid point writes into the carried buffer: 400 rows of 1500 lanes at the point's offset. -/
def slab (i : grid0.Coords) (x0 : Vec F S400x300 .f32) (x1 : Vec F S300x1500 .f32) (x2 : Vec F S1x1500 .f32) :
    View.Piece (Elt F) S10000x1500 .bf16 :=
  ⟨Rect.unit (s := S10000x1500) (k0_off1 i) S400x1500.size (k0_off1_inb i), k0_pay1 x0 x1 x2⟩

/-- The carried buffer after the point's store, read through its memref: the previous contents with the point's rows replaced. -/
def stored (arg15 : Memref sig .tc .vmem S10000x1500 .bf16) (harg15 : arg15.IsWhole) (i : grid0.Coords)
    (xs : Vec F S10000x1500 .bf16) (x0 : Vec F S400x300 .f32) (x1 : Vec F S300x1500 .f32) (x2 : Vec F S1x1500 .f32) :
    Vec F S10000x1500 .bf16 :=
  arg15.view.read (Elt F) (arg15.view.writes (Elt F) (harg15.unread xs) [slab i x0 x1 x2])

/-- What the last point stores into the output block, from the carried buffer's full contents `H` and the resident operands. -/
def tailOut (H : Vec F S10000x1500 .bf16) (x3 : Vec F S10000x128 .bf16) (x4 : Vec F S1500x1500 .bf16) (x5 : Vec F S1500x1500 .bf16) (x6 : Vec F S1x128 .f32) (x7 : Vec F S128x30 .f32) (x8 : Vec F S1x30 .f32) (x9 : Vec F S30x30 .f32) (x10 : Vec F S1x30 .f32) (x11 : Vec F S30x2 .f32) (x12 : Vec F S1x2 .f32) : Vec F S1500x2 .f32 :=
  k0_pay2 (k0_pay3 H x3 x4 x6 x7 x8 x9 x5) (k0_pay4 x10) x11 x12

omit [FloatOps F] in
/-- One store through the whole-buffer rectangle (zero offsets, the buffer's own sizes) reads back as its payload,
    whatever the buffer held. -/
theorem read_store_whole {Val : EltTy → Type} [∀ e, Nonempty (Val e)] {sig' : RefSig} {κ : Kind} {sp : Space} {S : Shape} {e : EltTy}
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

set_option maxHeartbeats 1000000 in
/-- The body at a point that is not the last: the point's rows are stored, the output block is not touched. -/
theorem run_inner (c : Dev nD) (i : grid0.Coords) (arg1 : Memref sig .tc .vmem S400x300 .f32) (harg1 : arg1.IsWhole) (arg2 : Memref sig .tc .vmem S300x1500 .f32) (harg2 : arg2.IsWhole) (arg3 : Memref sig .tc .vmem S1x1500 .f32) (harg3 : arg3.IsWhole) (arg4 : Memref sig .tc .vmem S10000x128 .bf16) (harg4 : arg4.IsWhole) (arg5 : Memref sig .tc .vmem S1500x1500 .bf16) (harg5 : arg5.IsWhole) (arg6 : Memref sig .tc .vmem S1500x1500 .bf16) (harg6 : arg6.IsWhole) (arg7 : Memref sig .tc .vmem S1x128 .f32) (harg7 : arg7.IsWhole) (arg8 : Memref sig .tc .vmem S128x30 .f32) (harg8 : arg8.IsWhole) (arg9 : Memref sig .tc .vmem S1x30 .f32) (harg9 : arg9.IsWhole) (arg10 : Memref sig .tc .vmem S30x30 .f32) (harg10 : arg10.IsWhole) (arg11 : Memref sig .tc .vmem S1x30 .f32) (harg11 : arg11.IsWhole) (arg12 : Memref sig .tc .vmem S30x2 .f32) (harg12 : arg12.IsWhole) (arg13 : Memref sig .tc .vmem S1x2 .f32) (harg13 : arg13.IsWhole) (arg14 : Memref sig .tc .vmem S1500x2 .f32) (harg14 : arg14.IsWhole) (arg15 : Memref sig .tc .vmem S10000x1500 .bf16) (harg15 : arg15.IsWhole) (hc0 : ¬lastPt i)
    (x0 : Vec F S400x300 .f32) (x1 : Vec F S300x1500 .f32) (x2 : Vec F S1x1500 .f32) (x3 : Vec F S10000x128 .bf16) (x4 : Vec F S1500x1500 .bf16) (x5 : Vec F S1500x1500 .bf16) (x6 : Vec F S1x128 .f32) (x7 : Vec F S128x30 .f32) (x8 : Vec F S1x30 .f32) (x9 : Vec F S30x30 .f32) (x10 : Vec F S1x30 .f32) (x11 : Vec F S30x2 .f32) (x12 : Vec F S1x2 .f32) (xo : Vec F S1500x2 .f32) (xs : Vec F S10000x1500 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare (stored arg15 harg15 i xs x0 x1 x2)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    iexists _; isplitr; swap; · iexact HS0
    ipureintro
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S400x300) zeros2, View.ld_unit_zero (S := S300x1500) zeros2, View.ld_unit_zero (S := S1x1500) zeros2, View.ld_unit_zero (S := S10000x128) zeros2, View.ld_unit_zero (S := S1500x1500) zeros2, View.ld_unit_zero (S := S1x128) zeros2, View.ld_unit_zero (S := S128x30) zeros2, View.ld_unit_zero (S := S1x30) zeros2, View.ld_unit_zero (S := S30x30) zeros2, View.ld_unit_zero (S := S30x2) zeros2, View.ld_unit_zero (S := S1x2) zeros2, View.ld_unit_zero (S := S10000x1500) zeros2]
    unfold stored slab
    rfl

set_option maxHeartbeats 4000000 in
/-- The body at the last point: the point's rows are stored, then the whole carried buffer is read back and the
    network's result is stored over the whole output block. -/
theorem run_last (c : Dev nD) (i : grid0.Coords) (arg1 : Memref sig .tc .vmem S400x300 .f32) (harg1 : arg1.IsWhole) (arg2 : Memref sig .tc .vmem S300x1500 .f32) (harg2 : arg2.IsWhole) (arg3 : Memref sig .tc .vmem S1x1500 .f32) (harg3 : arg3.IsWhole) (arg4 : Memref sig .tc .vmem S10000x128 .bf16) (harg4 : arg4.IsWhole) (arg5 : Memref sig .tc .vmem S1500x1500 .bf16) (harg5 : arg5.IsWhole) (arg6 : Memref sig .tc .vmem S1500x1500 .bf16) (harg6 : arg6.IsWhole) (arg7 : Memref sig .tc .vmem S1x128 .f32) (harg7 : arg7.IsWhole) (arg8 : Memref sig .tc .vmem S128x30 .f32) (harg8 : arg8.IsWhole) (arg9 : Memref sig .tc .vmem S1x30 .f32) (harg9 : arg9.IsWhole) (arg10 : Memref sig .tc .vmem S30x30 .f32) (harg10 : arg10.IsWhole) (arg11 : Memref sig .tc .vmem S1x30 .f32) (harg11 : arg11.IsWhole) (arg12 : Memref sig .tc .vmem S30x2 .f32) (harg12 : arg12.IsWhole) (arg13 : Memref sig .tc .vmem S1x2 .f32) (harg13 : arg13.IsWhole) (arg14 : Memref sig .tc .vmem S1500x2 .f32) (harg14 : arg14.IsWhole) (arg15 : Memref sig .tc .vmem S10000x1500 .bf16) (harg15 : arg15.IsWhole) (hc0 : lastPt i)
    (x0 : Vec F S400x300 .f32) (x1 : Vec F S300x1500 .f32) (x2 : Vec F S1x1500 .f32) (x3 : Vec F S10000x128 .bf16) (x4 : Vec F S1500x1500 .bf16) (x5 : Vec F S1500x1500 .bf16) (x6 : Vec F S1x128 .f32) (x7 : Vec F S128x30 .f32) (x8 : Vec F S1x30 .f32) (x9 : Vec F S30x30 .f32) (x10 : Vec F S1x30 .f32) (x11 : Vec F S30x2 .f32) (x12 : Vec F S1x2 .f32) (xo : Vec F S1500x2 .f32) (xs : Vec F S10000x1500 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare xo ∗ owns (c : Thread nD τ) arg15 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (tailOut (stored arg15 harg15 i xs x0 x1 x2) x3 x4 x5 x6 x7 x8 x9 x10 x11 x12) ∗ owns (c : Thread nD τ) arg15 fullShare (stored arg15 harg15 i xs x0 x1 x2)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__fused_eq_skeleton]; unfold cc0__fused_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; swap; · iexact H13
      ipureintro
      sl_unfold_run_names
      simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S400x300) zeros2, View.ld_unit_zero (S := S300x1500) zeros2, View.ld_unit_zero (S := S1x1500) zeros2, View.ld_unit_zero (S := S10000x128) zeros2, View.ld_unit_zero (S := S1500x1500) zeros2, View.ld_unit_zero (S := S1x128) zeros2, View.ld_unit_zero (S := S128x30) zeros2, View.ld_unit_zero (S := S1x30) zeros2, View.ld_unit_zero (S := S30x30) zeros2, View.ld_unit_zero (S := S30x2) zeros2, View.ld_unit_zero (S := S1x2) zeros2, View.ld_unit_zero (S := S10000x1500) zeros2]
      refine (read_store_whole (S := S1500x2) arg14.view _ zeros2 inb_S1500x2_S1500x2_0_0 _).trans ?_
      unfold tailOut stored slab
      rfl
    iexists _; isplitr; swap; · iexact HS0
    ipureintro
    sl_unfold_run_names
    simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S400x300) zeros2, View.ld_unit_zero (S := S300x1500) zeros2, View.ld_unit_zero (S := S1x1500) zeros2, View.ld_unit_zero (S := S10000x128) zeros2, View.ld_unit_zero (S := S1500x1500) zeros2, View.ld_unit_zero (S := S1x128) zeros2, View.ld_unit_zero (S := S128x30) zeros2, View.ld_unit_zero (S := S1x30) zeros2, View.ld_unit_zero (S := S30x30) zeros2, View.ld_unit_zero (S := S30x2) zeros2, View.ld_unit_zero (S := S1x2) zeros2, View.ld_unit_zero (S := S10000x1500) zeros2]
    unfold stored slab
    rfl

end Cert.KernelIdeal.Body

end
-- ==== Proof.KIFrame.lean ====
import proofs.«149645_g64390149702081_cont_9to1_m_674_16_alg».proof.Proof.KIBody

set_option maxRecDepth 16384

/-!
  The kernel's run over its 25 grid points, at any float instance.

  Between points the kernel keeps a 10000×1500 buffer. Before point `n` its rows below `400·n` hold the first
  layer's result for those rows (row `r` computed from block `r / 400` of the features), and nothing is known of
  the other rows; point `n` fills rows `[400·n, 400·n + 400)`. At the last point every earlier row is there, the
  point's own rows are stored first, so the whole buffer it then reads is the first layer's full result, and the
  output block it writes back is a function of the argument arrays alone.
-/

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule over the 25 points -/

/-- The body's branch is taken at point 24 and at no other. -/
theorem lastPt_iff : ∀ t : Fin cfg0.N, lastPt (grid0.coords t) ↔ t.val = 24 :=
  (by decide +kernel : ∀ t : Fin grid0.N, lastPt (grid0.coords t) ↔ t.val = 24)

/-- Point `t` stores rows `[400·t, 400·t + 400)`, all lanes. -/
theorem rows_at : ∀ t : Fin cfg0.N, k0_off1 (grid0.coords t) = ![400 * t.val, 0] :=
  (by decide +kernel : ∀ t : Fin grid0.N, k0_off1 (grid0.coords t) = ![400 * t.val, 0])

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
theorem live9 : ∀ t : Fin cfg0.N, cfg0.idle 9 (grid0.coords t) = false := by decide +kernel
theorem live10 : ∀ t : Fin cfg0.N, cfg0.idle 10 (grid0.coords t) = false := by decide +kernel
theorem live11 : ∀ t : Fin cfg0.N, cfg0.idle 11 (grid0.coords t) = false := by decide +kernel
theorem live12 : ∀ t : Fin cfg0.N, cfg0.idle 12 (grid0.coords t) = false := by decide +kernel
/-- The output window is idle except at the last point, where the body stores into it. -/
theorem out_idle : ∀ t : Fin cfg0.N, t.val ≠ 24 → cfg0.idle 13 (grid0.coords t) = true :=
  (by decide +kernel : ∀ t : Fin grid0.N, t.val ≠ 24 → cfg0.idle 13 (grid0.coords t) = true)
/-- At the last point the output window is live. -/
theorem out_live : ∀ t : Fin cfg0.N, t.val = 24 → cfg0.idle 13 (grid0.coords t) = false :=
  (by decide +kernel : ∀ t : Fin grid0.N, t.val = 24 → cfg0.idle 13 (grid0.coords t) = false)
/-- The output window is written back at the last point only. -/
theorem out_noflush (t : Fin cfg0.N) (h : t.val ≠ 24) : (cfg0.win 13).flush t = false := by
  have hN : t.val < 25 := lt_of_lt_of_eq t.isLt (show cfg0.N = 25 from N_0)
  cases hf : (cfg0.win 13).flush t
  · rfl
  · exact absurd ((flush0_13 t).mp hf) (by omega)

/-! ## The staging buffers at a point, and the carried buffer -/

abbrev buf0 (t : Fin cfg0.N) : Memref sig .tc .vmem S400x300 .f32 := win0_0.stage (cfg0.slots t 0)
abbrev wh0 (t : Fin cfg0.N) : (buf0 t).IsWhole := hstage0_0 ((cfg0.slots t 0).cast nbuf0_0)
abbrev buf1 (t : Fin cfg0.N) : Memref sig .tc .vmem S300x1500 .f32 := win0_1.stage (cfg0.slots t 1)
abbrev wh1 (t : Fin cfg0.N) : (buf1 t).IsWhole := hstage0_1 ((cfg0.slots t 1).cast nbuf0_1)
abbrev buf2 (t : Fin cfg0.N) : Memref sig .tc .vmem S1x1500 .f32 := win0_2.stage (cfg0.slots t 2)
abbrev wh2 (t : Fin cfg0.N) : (buf2 t).IsWhole := hstage0_2 ((cfg0.slots t 2).cast nbuf0_2)
abbrev buf3 (t : Fin cfg0.N) : Memref sig .tc .vmem S10000x128 .bf16 := win0_3.stage (cfg0.slots t 3)
abbrev wh3 (t : Fin cfg0.N) : (buf3 t).IsWhole := hstage0_3 ((cfg0.slots t 3).cast nbuf0_3)
abbrev buf4 (t : Fin cfg0.N) : Memref sig .tc .vmem S1500x1500 .bf16 := win0_4.stage (cfg0.slots t 4)
abbrev wh4 (t : Fin cfg0.N) : (buf4 t).IsWhole := hstage0_4 ((cfg0.slots t 4).cast nbuf0_4)
abbrev buf5 (t : Fin cfg0.N) : Memref sig .tc .vmem S1500x1500 .bf16 := win0_5.stage (cfg0.slots t 5)
abbrev wh5 (t : Fin cfg0.N) : (buf5 t).IsWhole := hstage0_5 ((cfg0.slots t 5).cast nbuf0_5)
abbrev buf6 (t : Fin cfg0.N) : Memref sig .tc .vmem S1x128 .f32 := win0_6.stage (cfg0.slots t 6)
abbrev wh6 (t : Fin cfg0.N) : (buf6 t).IsWhole := hstage0_6 ((cfg0.slots t 6).cast nbuf0_6)
abbrev buf7 (t : Fin cfg0.N) : Memref sig .tc .vmem S128x30 .f32 := win0_7.stage (cfg0.slots t 7)
abbrev wh7 (t : Fin cfg0.N) : (buf7 t).IsWhole := hstage0_7 ((cfg0.slots t 7).cast nbuf0_7)
abbrev buf8 (t : Fin cfg0.N) : Memref sig .tc .vmem S1x30 .f32 := win0_8.stage (cfg0.slots t 8)
abbrev wh8 (t : Fin cfg0.N) : (buf8 t).IsWhole := hstage0_8 ((cfg0.slots t 8).cast nbuf0_8)
abbrev buf9 (t : Fin cfg0.N) : Memref sig .tc .vmem S30x30 .f32 := win0_9.stage (cfg0.slots t 9)
abbrev wh9 (t : Fin cfg0.N) : (buf9 t).IsWhole := hstage0_9 ((cfg0.slots t 9).cast nbuf0_9)
abbrev buf10 (t : Fin cfg0.N) : Memref sig .tc .vmem S1x30 .f32 := win0_10.stage (cfg0.slots t 10)
abbrev wh10 (t : Fin cfg0.N) : (buf10 t).IsWhole := hstage0_10 ((cfg0.slots t 10).cast nbuf0_10)
abbrev buf11 (t : Fin cfg0.N) : Memref sig .tc .vmem S30x2 .f32 := win0_11.stage (cfg0.slots t 11)
abbrev wh11 (t : Fin cfg0.N) : (buf11 t).IsWhole := hstage0_11 ((cfg0.slots t 11).cast nbuf0_11)
abbrev buf12 (t : Fin cfg0.N) : Memref sig .tc .vmem S1x2 .f32 := win0_12.stage (cfg0.slots t 12)
abbrev wh12 (t : Fin cfg0.N) : (buf12 t).IsWhole := hstage0_12 ((cfg0.slots t 12).cast nbuf0_12)
abbrev buf13 (t : Fin cfg0.N) : Memref sig .tc .vmem S1500x2 .f32 := win0_13.stage (cfg0.slots t 13)
abbrev wh13 (t : Fin cfg0.N) : (buf13 t).IsWhole := hstage0_13 ((cfg0.slots t 13).cast nbuf0_13)

/-- The buffer the kernel carries from point to point. -/
abbrev carry : Memref sig .tc .vmem S10000x1500 .bf16 := Memref.whole cc0_scratch0

/-- What the region's invariant holds besides the windows: the carried buffer at some contents, and the generator register. -/
theorem rest_eq (c : Dev nD) :
    (Pipeline.ΦA spec0 c : sProp 𝕄)
      = iprop(iprop((∃ d, owns (c : Thread nD τ) carry fullShare d)) ∗ (∃ r, prngReg c r)) := by
  unfold Pipeline.ΦA; rw [scopedRest0_eq]; simp only [carry, owns_whole]; try rfl

/-! ## The carried buffer's rows -/

/-- The rows point `t` computes: its block of the features through the first layer. -/
def rowsOf (c : Dev nD) (t : Fin cfg0.N) : Vec F S400x1500 .bf16 :=
  k0_pay1 (iblk m c 0 t) (iblk m c 1 t) (iblk m c 2 t)

/-- The point that stores row `y 0`. -/
def ptOf (y : S10000x1500.Idx) : Fin cfg0.N := ⟨(y 0).val / 400, by
  have h : (y 0).val < 10000 := (y 0).isLt
  have hN : cfg0.N = 25 := N_0
  omega⟩

/-- Where an entry of the carried buffer sits inside its point's 400 rows. -/
def inRows (y : S10000x1500.Idx) : S400x1500.Idx := fun a => match a with
  | ⟨0, _⟩ => ⟨(y 0).val % 400, Nat.mod_lt _ (by decide)⟩
  | ⟨1, _⟩ => ⟨(y 1).val, (y 1).isLt⟩

theorem inRows_row (y : S10000x1500.Idx) : (inRows y 0).val = (y 0).val % 400 := rfl
theorem inRows_lane (y : S10000x1500.Idx) : (inRows y 1).val = (y 1).val := rfl

/-- The carried buffer once every point has stored: the first layer's full result. -/
def hidden (c : Dev nD) : Vec F S10000x1500 .bf16 := fun y => rowsOf m c (ptOf y) (inRows y)

/-- Before point `n`: the rows below `400·n` are the first layer's. -/
def Filled (c : Dev nD) (n : ℕ) (d : Vec F S10000x1500 .bf16) : Prop :=
  ∀ y : S10000x1500.Idx, (y 0).val < 400 * n → d y = hidden m c y

omit m in
/-- An entry inside the rows point `t` stores reads the stored rows there. -/
theorem stored_in (arg15 : Memref sig .tc .vmem S10000x1500 .bf16) (harg15 : arg15.IsWhole) (t : Fin cfg0.N)
    (xs : Vec F S10000x1500 .bf16) (x0 : Vec F S400x300 .f32) (x1 : Vec F S300x1500 .f32) (x2 : Vec F S1x1500 .f32)
    (y : S10000x1500.Idx) (x : S400x1500.Idx) (h0 : (y 0).val = 400 * t.val + (x 0).val) (h1 : (y 1).val = (x 1).val) :
    stored arg15 harg15 (grid0.coords t) xs x0 x1 x2 y = k0_pay1 x0 x1 x2 x := by
  unfold stored slab
  exact View.read_writes_cons_rows_of_mem arg15.view (harg15.unread xs) (k0_off1_inb (grid0.coords t)) (k0_pay1 x0 x1 x2) [] y x
    (rows_at t) h0 h1

omit m in
/-- An entry outside them reads what the buffer held. -/
theorem stored_out (arg15 : Memref sig .tc .vmem S10000x1500 .bf16) (harg15 : arg15.IsWhole) (t : Fin cfg0.N)
    (xs : Vec F S10000x1500 .bf16) (x0 : Vec F S400x300 .f32) (x1 : Vec F S300x1500 .f32) (x2 : Vec F S1x1500 .f32)
    (y : S10000x1500.Idx) (h : (y 0).val < 400 * t.val ∨ 400 * t.val + 400 ≤ (y 0).val) :
    stored arg15 harg15 (grid0.coords t) xs x0 x1 x2 y = xs y := by
  unfold stored slab
  rw [View.read_writes_cons_rows_of_not_mem arg15.view (harg15.unread xs) (k0_off1_inb (grid0.coords t)) (k0_pay1 x0 x1 x2) [] y
    (rows_at t) (W := 400) rfl h, View.writes_nil, harg15.read_unread]

/-- A point's store extends the filled rows by its own. -/
theorem filled_succ (c : Dev nD) (arg15 : Memref sig .tc .vmem S10000x1500 .bf16) (harg15 : arg15.IsWhole) (t : Fin cfg0.N)
    (d : Vec F S10000x1500 .bf16) (hd : Filled m c t.val d) :
    Filled m c (t.val + 1) (stored arg15 harg15 (grid0.coords t) d (iblk m c 0 t) (iblk m c 1 t) (iblk m c 2 t)) := by
  intro y hy
  by_cases h : (y 0).val < 400 * t.val
  · rw [stored_out arg15 harg15 t d _ _ _ y (Or.inl h)]; exact hd y h
  · have hp : ptOf y = t := Fin.ext (by show (y 0).val / 400 = t.val; omega)
    rw [stored_in arg15 harg15 t d _ _ _ y (inRows y) (by rw [inRows_row]; omega) (inRows_lane y).symm]
    unfold hidden; rw [hp]; rfl

/-- At the last point the store completes the buffer: whatever its other rows held, it now is the first layer's result. -/
theorem stored_last (c : Dev nD) (arg15 : Memref sig .tc .vmem S10000x1500 .bf16) (harg15 : arg15.IsWhole) (t : Fin cfg0.N)
    (ht : t.val = 24) (d : Vec F S10000x1500 .bf16) (hd : Filled m c t.val d) :
    stored arg15 harg15 (grid0.coords t) d (iblk m c 0 t) (iblk m c 1 t) (iblk m c 2 t) = hidden m c := by
  funext y
  have hy : (y 0).val < 10000 := (y 0).isLt
  exact filled_succ m c arg15 harg15 t d hd y (by omega)

/-! ## The pipeline's proof data -/

/-- The invariant before point `n`: the carried buffer with its first `400·n` rows filled, and the generator register. -/
def carried (c : Dev nD) (n : ℕ) : sProp 𝕄 :=
  iprop(iprop((∃ d, ⌜Filled m c n d⌝ ∗ owns (c : Thread nD τ) carry fullShare d)) ∗ (∃ r, prngReg c r))

/-- What the last point leaves in the output block: the rest of the network on the full first-layer result. -/
def netOut (c : Dev nD) (t : Fin cfg0.N) : Vec F S1500x2 .f32 :=
  tailOut (hidden m c) (iblk m c 3 t) (iblk m c 4 t) (iblk m c 5 t) (iblk m c 6 t) (iblk m c 7 t) (iblk m c 8 t) (iblk m c 9 t) (iblk m c 10 t) (iblk m c 11 t) (iblk m c 12 t)

/-- Each input's buffer is left at its block; the output's at the network's result (consulted at the last point only,
    the window being idle before). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => netOut m c t
  Φ t := carried m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = netOut m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d))
    ∗ (∃ d, owns (c : Thread nD τ) (buf13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 2400000 in
/-- The body at any point: the inputs' buffers hold their blocks; the carried buffer comes in with the rows below the
    point filled and goes out with the point's rows added; the output buffer is handed back untouched before the last
    point and holds the network's result at it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl]
  rw [show (dats m 0 c).Φ t.castSucc = carried m c t.val from rfl, show (dats m 0 c).Φ t.succ = carried m c (t.val + 1) from rfl]
  unfold carried
  rw [show (dats m 0 c).leavesExact 0 t = owns (c : Thread nD τ) (buf0 t) fullShare ((dats m 0 c).after 0 t) from by
    unfold Dat.leavesExact; rw [live0 t], after0]
  rw [show (dats m 0 c).leavesExact 1 t = owns (c : Thread nD τ) (buf1 t) fullShare ((dats m 0 c).after 1 t) from by
    unfold Dat.leavesExact; rw [live1 t], after1]
  rw [show (dats m 0 c).leavesExact 2 t = owns (c : Thread nD τ) (buf2 t) fullShare ((dats m 0 c).after 2 t) from by
    unfold Dat.leavesExact; rw [live2 t], after2]
  rw [show (dats m 0 c).leavesExact 3 t = owns (c : Thread nD τ) (buf3 t) fullShare ((dats m 0 c).after 3 t) from by
    unfold Dat.leavesExact; rw [live3 t], after3]
  rw [show (dats m 0 c).leavesExact 4 t = owns (c : Thread nD τ) (buf4 t) fullShare ((dats m 0 c).after 4 t) from by
    unfold Dat.leavesExact; rw [live4 t], after4]
  rw [show (dats m 0 c).leavesExact 5 t = owns (c : Thread nD τ) (buf5 t) fullShare ((dats m 0 c).after 5 t) from by
    unfold Dat.leavesExact; rw [live5 t], after5]
  rw [show (dats m 0 c).leavesExact 6 t = owns (c : Thread nD τ) (buf6 t) fullShare ((dats m 0 c).after 6 t) from by
    unfold Dat.leavesExact; rw [live6 t], after6]
  rw [show (dats m 0 c).leavesExact 7 t = owns (c : Thread nD τ) (buf7 t) fullShare ((dats m 0 c).after 7 t) from by
    unfold Dat.leavesExact; rw [live7 t], after7]
  rw [show (dats m 0 c).leavesExact 8 t = owns (c : Thread nD τ) (buf8 t) fullShare ((dats m 0 c).after 8 t) from by
    unfold Dat.leavesExact; rw [live8 t], after8]
  rw [show (dats m 0 c).leavesExact 9 t = owns (c : Thread nD τ) (buf9 t) fullShare ((dats m 0 c).after 9 t) from by
    unfold Dat.leavesExact; rw [live9 t], after9]
  rw [show (dats m 0 c).leavesExact 10 t = owns (c : Thread nD τ) (buf10 t) fullShare ((dats m 0 c).after 10 t) from by
    unfold Dat.leavesExact; rw [live10 t], after10]
  rw [show (dats m 0 c).leavesExact 11 t = owns (c : Thread nD τ) (buf11 t) fullShare ((dats m 0 c).after 11 t) from by
    unfold Dat.leavesExact; rw [live11 t], after11]
  rw [show (dats m 0 c).leavesExact 12 t = owns (c : Thread nD τ) (buf12 t) fullShare ((dats m 0 c).after 12 t) from by
    unfold Dat.leavesExact; rw [live12 t], after12]
  by_cases h0 : t.val = 24
  · rw [show (dats m 0 c).leavesExact 13 t = owns (c : Thread nD τ) (buf13 t) fullShare ((dats m 0 c).after 13 t) from by
      unfold Dat.leavesExact; rw [out_live t h0], after13]
    iintro ⟨⟨⟨%d, %hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((run_last c (grid0.coords t) _ _ _ _ _ _ _ _ _ _ _ _ _ _ _ _ _ _ _ _ _ _ _ _ _ _ _ _ carry (Memref.isWhole_whole _) ((lastPt_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ d) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    iintro ⟨H0, H1, H2, H3, H4, H5, H6, H7, H8, H9, H10, H11, H12, H13, HS0⟩
    isplitl [HS0 Hg]
    · isplitl [HS0]
      · iexists _; isplitr; · ipureintro; exact filled_succ m c carry (Memref.isWhole_whole _) t d hd
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold netOut
    rw [← stored_last m c carry (Memref.isWhole_whole _) t h0 d hd]
    iexact H13
  · rw [Dat.leavesExact_idle (dats m 0 c) 13 t (out_idle t h0) (out_noflush t h0)]
    iintro ⟨⟨⟨%d, %hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((run_inner c (grid0.coords t) _ _ _ _ _ _ _ _ _ _ _ _ _ _ _ _ _ _ _ _ _ _ _ _ _ _ _ _ carry (Memref.isWhole_whole _) (fun h => h0 ((lastPt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ d) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    iintro ⟨H0, H1, H2, H3, H4, H5, H6, H7, H8, H9, H10, H11, H12, H13, HS0⟩
    isplitl [HS0 Hg]
    · isplitl [HS0]
      · iexists _; isplitr; · ipureintro; exact filled_succ m c carry (Memref.isWhole_whole _) t d hd
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists _; iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-- At the region's entry nothing is filled yet. -/
theorem enter (c : Dev nD) : Pipeline.ΦA spec0 c ⊢ (dats m 0 c).Φ 0 := by
  rw [show (dats m 0 c).Φ 0 = carried m c 0 from rfl, rest_eq]; unfold carried
  iintro ⟨⟨%d, HS0⟩, Hg⟩
  isplitl [HS0]
  · iexists d; isplitr; · ipureintro; exact fun y hy => absurd hy (by omega)
    iexact HS0
  iexact Hg

/-- After the last point the carried buffer's contents are forgotten again. -/
theorem leave (c : Dev nD) : (dats m 0 c).Φ (Fin.last cfg0.N) ⊢ Pipeline.ΦA spec0 c := by
  rw [show (dats m 0 c).Φ (Fin.last cfg0.N) = carried m c (Fin.last cfg0.N).val from rfl, rest_eq]; unfold carried
  iintro ⟨⟨%d, %hd, HS0⟩, Hg⟩
  isplitl [HS0]
  · iexists d; iexact HS0
  iexact Hg

/-! ## The run -/

set_option backward.isDefEq.respectTransparency.types false in
/-- Every weakly fair execution of the program terminates; every array of the pipeline ends at what the library
    computes from the proof data, every other unscoped buffer at its contents at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The frame: the program runs and its thirteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Body

end
-- ==== Proof.Spec.lean ====
/-
  The network both programs compute, up to the logits, as plain sums over the extended reals.
  A 10000×300 feature matrix goes through an affine layer to 10000×1500; that result is contracted over its
  10000 rows against a 10000×128 weight (so the 1500 columns become the graph's nodes); three graph-convolution
  layers follow, each "adjacency times (features times weight) plus bias", the first clamped at zero; a last affine
  layer gives two logits per node. Every sum is a finite sum in the commutative monoid of extended reals, so
  no order of summation is fixed here.
-/
import Idealize.ShloMosaic.PureOps.Ideal

noncomputable section

namespace Cert.Spec

open scoped BigOperators

/-- The first affine layer: row `r` of the features against column `a` of the weight, plus the bias. -/
def hid (X : Fin 10000 → Fin 300 → EReal) (W1 : Fin 300 → Fin 1500 → EReal) (b1 : Fin 1500 → EReal)
    (r : Fin 10000) (a : Fin 1500) : EReal := (∑ k : Fin 300, X r k * W1 k a) + b1 a

/-- The hidden array contracted over its 10000 rows against the first graph weight: node `a`, feature `j`. -/
def agg1 (H : Fin 10000 → Fin 1500 → EReal) (Wg1 : Fin 10000 → Fin 128 → EReal) (a : Fin 1500) (j : Fin 128) : EReal :=
  ∑ r : Fin 10000, H r a * Wg1 r j

/-- One graph-convolution step: the adjacency row of node `p` against column `j` of the support, plus the bias. -/
def conv {n : ℕ} (A : Fin 1500 → Fin 1500 → EReal) (S : Fin 1500 → Fin n → EReal) (b : Fin n → EReal)
    (p : Fin 1500) (j : Fin n) : EReal := (∑ a : Fin 1500, A p a * S a j) + b j

/-- Features times a weight: node `p`, output feature `q`. -/
def proj {k n : ℕ} (Hf : Fin 1500 → Fin k → EReal) (W : Fin k → Fin n → EReal) (p : Fin 1500) (q : Fin n) : EReal :=
  ∑ j : Fin k, Hf p j * W j q

/-- The two logits of every node, from the thirteen argument arrays. -/
def logits (X : Fin 10000 → Fin 300 → EReal) (A A2 : Fin 1500 → Fin 1500 → EReal) (W1 : Fin 300 → Fin 1500 → EReal)
    (b1 : Fin 1500 → EReal) (Wg1 : Fin 10000 → Fin 128 → EReal) (bg1 : Fin 128 → EReal) (Wg2 : Fin 128 → Fin 30 → EReal)
    (bg2 : Fin 30 → EReal) (Wg3 : Fin 30 → Fin 30 → EReal) (bg3 : Fin 30 → EReal) (Wl4 : Fin 30 → Fin 2 → EReal)
    (bl4 : Fin 2 → EReal) (p : Fin 1500) (u : Fin 2) : EReal :=
  let h1 : Fin 1500 → Fin 128 → EReal := fun p j => max (conv A (agg1 (hid X W1 b1) Wg1) bg1 p j) 0
  let h2 : Fin 1500 → Fin 30 → EReal := conv A (proj h1 Wg2) bg2
  let h3 : Fin 1500 → Fin 30 → EReal := conv A2 (proj h2 Wg3) bg3
  proj h3 Wl4 p u + bl4 u

/-- The larger of a node's two logits. -/
def rowMax (w : Fin 1500 → Fin 2 → EReal) (p : Fin 1500) : EReal := max (w p 0) (w p 1)

/-- The log-softmax of a node's two logits, shifted by their maximum: (w − M) − log (exp (w₀ − M) + exp (w₁ − M)). -/
def logSoftmax (w : Fin 1500 → Fin 2 → EReal) (p : Fin 1500) (u : Fin 2) : EReal :=
  (w p u - rowMax w p)
    - Idealize.ShloMosaic.Ideal.log (Idealize.ShloMosaic.Ideal.exp (w p 0 - rowMax w p) + Idealize.ShloMosaic.Ideal.exp (w p 1 - rowMax w p))

end Cert.Spec

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibLeadDot.lean ====
/-
  A matrix product that contracts the LEADING axis of both operands, read at one entry, at the ideal values.

  Take a k×m matrix A and a k×n matrix B and dimension numbers that contract axis 0 of A against axis 0 of B,
  with no batch axis: the m×n product Aᵀ·B. A kernel's `tpu.matmul` into the zero accumulator then holds, at
  entry (a, b), the sum over the contracted coordinate c of A(c, a) · B(c, b) — in the extended reals, with no
  finiteness asked: it is that sum by definition once the contraction index is renamed by its one coordinate.

  The dimension record may be any record equal to `leadDims m k n` below; for a record written out with the
  lists [0] [0] [1] [1] [] [] the equality is `rfl`.
-/
import Idealize.ShloMosaic.PureOps.Ideal.Laws
import Idealize.ShloMosaic.Lib.ValueIdx

noncomputable section

open scoped BigOperators

namespace Cert.LeadDot

open Idealize.ShloMosaic Idealize.ShloMosaic.ValueIdx

/-- The dimension numbers `<[0], [0], [1], [1], [], []>`: k×m by k×n, both contracted on their leading axis. -/
def leadDims (m k n : Nat) : DotDims ⟨2, ![k, m]⟩ ⟨2, ![k, n]⟩ ⟨2, ![m, n]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {m k n : Nat} {φ₁ φ₂ : FTy}

/-- The left operand's leading coordinate is the contraction coordinate. -/
theorem lhsIdx_lead_0 (j : (⟨2, ![m, n]⟩ : Shape).Idx) (q : (leadDims m k n).contr.Idx) :
    ((leadDims m k n).lhsIdx j q 0).val = (q ⟨0, Nat.one_pos⟩).val :=
  (leadDims m k n).lhsIdx_val_of_single rfl j q

/-- The left operand's second coordinate is the output's row. -/
theorem lhsIdx_lead_1 (j : (⟨2, ![m, n]⟩ : Shape).Idx) (q : (leadDims m k n).contr.Idx) :
    ((leadDims m k n).lhsIdx j q 1).val = (j 0).val := by
  unfold DotDims.lhsIdx
  rw [dif_neg (show ¬(1 : Fin 2) ∈ (leadDims m k n).lhsBatch from List.not_mem_nil),
    dif_pos (show (1 : Fin 2) ∈ (leadDims m k n).lhsNonContracting from List.mem_singleton.mpr rfl)]
  rfl

/-- The right operand's leading coordinate is the contraction coordinate. -/
theorem rhsIdx_lead_0 (j : (⟨2, ![m, n]⟩ : Shape).Idx) (q : (leadDims m k n).contr.Idx) :
    ((leadDims m k n).rhsIdx j q 0).val = (q ⟨0, Nat.one_pos⟩).val :=
  (leadDims m k n).rhsIdx_val_of_single rfl j q

/-- The right operand's second coordinate is the output's column. -/
theorem rhsIdx_lead_1 (j : (⟨2, ![m, n]⟩ : Shape).Idx) (q : (leadDims m k n).contr.Idx) :
    ((leadDims m k n).rhsIdx j q 1).val = (j 1).val := by
  unfold DotDims.rhsIdx
  rw [dif_neg (show ¬(1 : Fin 2) ∈ (leadDims m k n).rhsBatch from List.not_mem_nil),
    dif_pos (show (1 : Fin 2) ∈ (leadDims m k n).rhsNonContracting from List.mem_singleton.mpr rfl)]
  rfl

/-- At output entry (a, b) and contraction coordinate c the left operand is read at (c, a). -/
theorem lhsIdx_lead (a : Fin m) (b : Fin n) (c : Fin k) :
    (leadDims m k n).lhsIdx (ix2 a b) ((contrEquiv1 (leadDims m k n) k rfl rfl).symm c) = ix2 c a := by
  have hc := contrEquiv1_symm_val (leadDims m k n) k rfl rfl c
  funext ax
  apply Fin.ext
  match ax with
  | ⟨0, _⟩ => exact (lhsIdx_lead_0 _ _).trans hc
  | ⟨1, _⟩ => exact lhsIdx_lead_1 _ _

/-- At output entry (a, b) and contraction coordinate c the right operand is read at (c, b). -/
theorem rhsIdx_lead (a : Fin m) (b : Fin n) (c : Fin k) :
    (leadDims m k n).rhsIdx (ix2 a b) ((contrEquiv1 (leadDims m k n) k rfl rfl).symm c) = ix2 c b := by
  have hc := contrEquiv1_symm_val (leadDims m k n) k rfl rfl c
  funext ax
  apply Fin.ext
  match ax with
  | ⟨0, _⟩ => exact (rhsIdx_lead_0 _ _).trans hc
  | ⟨1, _⟩ => exact rhsIdx_lead_1 _ _

/-- The sum over the contraction index is the sum over its one coordinate. -/
theorem sum_contr_lead (A : (⟨2, ![k, m]⟩ : Shape).Idx → EReal) (B : (⟨2, ![k, n]⟩ : Shape).Idx → EReal)
    (a : Fin m) (b : Fin n) :
    (∑ q : (leadDims m k n).contr.Idx,
        A ((leadDims m k n).lhsIdx (ix2 a b) q) * B ((leadDims m k n).rhsIdx (ix2 a b) q))
      = ∑ c : Fin k, A (ix2 c a) * B (ix2 c b) := by
  rw [← Equiv.sum_comp (contrEquiv1 (leadDims m k n) k rfl rfl).symm]
  refine Finset.sum_congr rfl fun c _ => ?_
  rw [lhsIdx_lead, rhsIdx_lead]

/-- A `tpu.matmul` into the zero accumulator, contracting the leading axis of both operands, at entry (a, b):
    the sum over c of A(c, a) · B(c, b). -/
theorem matmul_zero_apply (D : DotDims ⟨2, ![k, m]⟩ ⟨2, ![k, n]⟩ ⟨2, ![m, n]⟩) (hD : D = leadDims m k n)
    (prec : Option ContractPrecision) (A : FVec Ideal ⟨2, ![k, m]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 c a) * B (ix2 c b) := by
  subst hD
  rw [Ideal.matmul_constant_zero_apply]
  exact sum_contr_lead A B a b

end Cert.LeadDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.KITailRows.lean ====
/-
  One block of the first affine layer, read at an entry over the extended reals: 400 rows of the features times the
  300×1500 weight, plus the bias row. The changes of float format — of both operands before the product and of the result after it — are the identity on exact values, the product into
  the zero accumulator is the plain sum over the 300 contracted coordinates, and the 1×1500 bias row is copied to every row.
-/
import proofs.«149645_g64390149702081_cont_9to1_m_674_16_alg».proof.Proof.Gen.KernelIdeal.Skeleton
import proofs.«149645_g64390149702081_cont_9to1_m_674_16_alg».proof.Proof.Spec
import proofs.«149645_g64390149702081_cont_9to1_m_674_16_alg».proof.Proof.LibPlainDot
import proofs.«149645_g64390149702081_cont_9to1_m_674_16_alg».proof.Proof.LibLeadDot
import proofs.«149645_g64390149702081_cont_9to1_m_674_16_alg».proof.Proof.LibRowVector
import proofs.«149645_g64390149702081_cont_9to1_m_674_16_alg».proof.Proof.LibRowOps
import Idealize.ShloMosaic.Lib.Pipeline.Value
import Idealize.ShloMosaic.Lib.ValueIdx

noncomputable section

namespace Cert.KernelValue

open Cert.KernelIdeal Cert.KernelIdeal.Gen Idealize.ShloMosaic Idealize.SL.Sem
open Idealize.ShloMosaic.ValueIdx
open scoped BigOperators

/-- One block of rows of the first affine layer: row r of the block's features against column a of the
    weight, plus the bias row's entry at a. -/
theorem rows_apply (x0 : FVec Ideal S400x300 .f32) (x1 : FVec Ideal S300x1500 .f32) (x2 : FVec Ideal S1x1500 .f32)
    (r : Fin 400) (a : Fin 1500) :
    k0_pay1 (F := Ideal) x0 x1 x2 (ix2 r a) = (∑ k : Fin 300, x0 (ix2 r k) * x1 (ix2 k a)) + x2 (ix2 0 a) := by
  unfold k0_pay1
  refine (congrFun (shapeCast_self _ _) (ix2 r a)).trans ?_
  refine (ValueIdx.truncf_apply (ψ := .bf16) _ bitsLt_bf16_f32 _).trans ?_
  refine (ValueIdx.addf_apply _ _ _).trans ?_
  refine congrArg₂ (· + ·) ?_ ?_
  · refine (Cert.PlainDot.matmul_zero_apply _ rfl none _ _ r a).trans ?_
    exact Finset.sum_congr rfl fun k _ => rfl
  · refine (Cert.RowVector.broadcastTo_row (by decide) _ _ r a).trans ?_
    exact congrFun (shapeCast_self _ _) _

end Cert.KernelValue

end
-- ==== Proof.KITailStages.lean ====
/-
  The three kinds of matrix product in the network's tail, each read at an entry over the extended reals and named by
  the specification's term: an adjacency against a support plus a bias row (a graph-convolution step), features
  against a weight, and the hidden array contracted over its 10000 rows against the first graph weight. No finiteness
  is used: each is a finite sum of products by definition, the roundings being the identity on exact values.
-/
import proofs.«149645_g64390149702081_cont_9to1_m_674_16_alg».proof.Proof.Gen.KernelIdeal.Skeleton
import proofs.«149645_g64390149702081_cont_9to1_m_674_16_alg».proof.Proof.Spec
import proofs.«149645_g64390149702081_cont_9to1_m_674_16_alg».proof.Proof.LibPlainDot
import proofs.«149645_g64390149702081_cont_9to1_m_674_16_alg».proof.Proof.LibLeadDot
import proofs.«149645_g64390149702081_cont_9to1_m_674_16_alg».proof.Proof.LibRowVector
import proofs.«149645_g64390149702081_cont_9to1_m_674_16_alg».proof.Proof.LibRowOps
import Idealize.ShloMosaic.Lib.Pipeline.Value
import Idealize.ShloMosaic.Lib.ValueIdx

noncomputable section

namespace Cert.KernelValue

open Cert.KernelIdeal Cert.KernelIdeal.Gen Idealize.ShloMosaic Idealize.SL.Sem
open Idealize.ShloMosaic.ValueIdx
open scoped BigOperators

/-- A graph-convolution step of the kernel: the adjacency against the support (rounding of the support is
    the identity on exact values), plus the bias row. -/
theorem conv_stage {n : ℕ} (hn : n ≠ 1) (D : DotDims ⟨2, ![1500, 1500]⟩ ⟨2, ![1500, n]⟩ ⟨2, ![1500, n]⟩)
    (hD : D = DotDims.plain 1500 1500 n) (Adj : FVec Ideal ⟨2, ![1500, 1500]⟩ .bf16) (S : FVec Ideal ⟨2, ![1500, n]⟩ .f32)
    (b : FVec Ideal ⟨2, ![1, n]⟩ .f32) (hb : FTy.bf16.bits < FTy.f32.bits)
    (h1 : (⟨2, ![1500, 1500]⟩ : Shape).ShapeCasts ⟨2, ![1500, 1500]⟩) (h2 : (⟨2, ![1, n]⟩ : Shape).ShapeCasts ⟨2, ![1, n]⟩)
    (h3 : (⟨2, ![1, n]⟩ : Shape).Broadcasts ⟨2, ![1500, n]⟩) (p : Fin 1500) (j : Fin n) :
    addf (matmul D none (shapeCast ⟨2, ![1500, 1500]⟩ Adj h1) (truncf .bf16 S hb) (constant (F := Ideal) ⟨2, ![1500, n]⟩ .f32 0x00000000#32))
        (broadcastTo ⟨2, ![1500, n]⟩ (shapeCast ⟨2, ![1, n]⟩ b h2) h3) (ix2 p j)
      = Cert.Spec.conv (fun p a => Adj (ix2 p a)) (fun a j => S (ix2 a j)) (fun j => b (ix2 0 j)) p j := by
  refine (ValueIdx.addf_apply _ _ _).trans ?_
  unfold Cert.Spec.conv
  refine congrArg₂ (· + ·) ?_ ?_
  · refine (Cert.PlainDot.matmul_zero_apply D hD none _ _ p j).trans ?_
    refine Finset.sum_congr rfl fun a _ => ?_
    exact congrArg (· * S (ix2 a j)) (congrFun (shapeCast_self Adj h1) (ix2 p a))
  · refine (Cert.RowVector.broadcastTo_row hn _ h3 p j).trans ?_
    exact congrFun (shapeCast_self b h2) _

/-- Features times a weight in the kernel: both operands rounded (the identity on exact values), into the zero
    accumulator. -/
theorem proj_stage {k n : ℕ} (D : DotDims ⟨2, ![1500, k]⟩ ⟨2, ![k, n]⟩ ⟨2, ![1500, n]⟩) (hD : D = DotDims.plain 1500 k n)
    (Hf : FVec Ideal ⟨2, ![1500, k]⟩ .f32) (W : FVec Ideal ⟨2, ![k, n]⟩ .f32) (hb : FTy.bf16.bits < FTy.f32.bits)
    (p : Fin 1500) (q : Fin n) :
    matmul D none (truncf .bf16 Hf hb) (truncf .bf16 W hb) (constant (F := Ideal) ⟨2, ![1500, n]⟩ .f32 0x00000000#32) (ix2 p q)
      = Cert.Spec.proj (fun p j => Hf (ix2 p j)) (fun j q => W (ix2 j q)) p q := by
  refine (Cert.PlainDot.matmul_zero_apply D hD none _ _ p q).trans ?_
  exact Finset.sum_congr rfl fun j _ => rfl

/-- The hidden array contracted over its leading axis against the first graph weight. -/
theorem lead_stage (D : DotDims ⟨2, ![10000, 1500]⟩ ⟨2, ![10000, 128]⟩ ⟨2, ![1500, 128]⟩) (hD : D = Cert.LeadDot.leadDims 1500 10000 128)
    (H : FVec Ideal ⟨2, ![10000, 1500]⟩ .bf16) (W : FVec Ideal ⟨2, ![10000, 128]⟩ .bf16)
    (h1 : (⟨2, ![10000, 128]⟩ : Shape).ShapeCasts ⟨2, ![10000, 128]⟩) (a : Fin 1500) (j : Fin 128) :
    matmul D none H (shapeCast ⟨2, ![10000, 128]⟩ W h1) (constant (F := Ideal) ⟨2, ![1500, 128]⟩ .f32 0x00000000#32) (ix2 a j)
      = Cert.Spec.agg1 (fun r a => H (ix2 r a)) (fun r j => W (ix2 r j)) a j := by
  refine (Cert.LeadDot.matmul_zero_apply D hD none _ _ a j).trans ?_
  unfold Cert.Spec.agg1
  refine Finset.sum_congr rfl fun r _ => ?_
  exact congrArg (H (ix2 r a) * ·) (congrFun (shapeCast_self W h1) (ix2 r j))

end Cert.KernelValue

end
-- ==== Proof.KITailSoft.lean ====
/-
  The log-softmax over two lanes as the kernel spells it, read at an entry: the row maximum from −∞ (the fold of max
  over the two lanes is the larger of the two), the shift, the exponentials, their sum from zero, the logarithm, the
  difference. It is the specification's log-softmax of the same array.
-/
import proofs.«149645_g64390149702081_cont_9to1_m_674_16_alg».proof.Proof.Gen.KernelIdeal.Skeleton
import proofs.«149645_g64390149702081_cont_9to1_m_674_16_alg».proof.Proof.Spec
import proofs.«149645_g64390149702081_cont_9to1_m_674_16_alg».proof.Proof.LibPlainDot
import proofs.«149645_g64390149702081_cont_9to1_m_674_16_alg».proof.Proof.LibLeadDot
import proofs.«149645_g64390149702081_cont_9to1_m_674_16_alg».proof.Proof.LibRowVector
import proofs.«149645_g64390149702081_cont_9to1_m_674_16_alg».proof.Proof.LibRowOps
import Idealize.ShloMosaic.Lib.Pipeline.Value
import Idealize.ShloMosaic.Lib.ValueIdx

noncomputable section

namespace Cert.KernelValue

open Cert.KernelIdeal Cert.KernelIdeal.Gen Idealize.ShloMosaic Idealize.SL.Sem
open Idealize.ShloMosaic.ValueIdx
open scoped BigOperators

/-- The exponential of an array at an index. -/
private theorem exp_apply {s : Shape} {φ : FTy} (x : FVec Ideal s φ) (i : s.Idx) : exp x i = Ideal.exp (x i) := rfl
/-- The logarithm of an array at an index. -/
private theorem log_apply {s : Shape} {φ : FTy} (x : FVec Ideal s φ) (i : s.Idx) : log x i = Ideal.log (x i) := rfl

/-- The word 0xFF800000 is −∞, the least extended real. -/
private theorem neg_inf_word : Ideal.ofBits .f32 0xFF800000#32 = (⊥ : EReal) := by simp [Ideal.ofBits, Ideal.ieee]

/-- Each row's two entries shifted by the row's maximum. -/
def shifted (w : FVec Ideal S1500x2 .f32) : FVec Ideal S1500x2 .f32 :=
  subf w (broadcastTo S1500x2 (shapeCast S1500x1 (multiReduction .maximumf [1] S1500 w 0xFF800000#32 reduces_S1500x2_S1500 (.inl rfl) rfl)
    shapeCasts_S1500_S1500x1) broadcasts_S1500x1_S1500x2)

/-- The kernel's log-softmax of a two-column array: shift by the row maximum, then subtract the logarithm of the row's
    sum of exponentials. -/
def softTail (w : FVec Ideal S1500x2 .f32) : FVec Ideal S1500x2 .f32 :=
  subf (shifted w) (broadcastTo S1500x2 (log (shapeCast S1500x1 (multiReduction .add [1] S1500 (exp (shifted w)) 0x00000000#32
    reduces_S1500x2_S1500 (.inl rfl) rfl) shapeCasts_S1500_S1500x1)) broadcasts_S1500x1_S1500x2)

theorem shifted_apply (w : FVec Ideal S1500x2 .f32) (p : Fin 1500) (u : Fin 2) :
    shifted w (ix2 p u) = w (ix2 p u) - Cert.Spec.rowMax (fun p u => w (ix2 p u)) p := by
  unfold shifted
  refine (ValueIdx.subf_apply _ _ _).trans ?_
  refine congrArg (w (ix2 p u) - ·) ?_
  refine (RowOps.broadcastTo_a1_ab_apply _ _ p u).trans ?_
  refine (RowOps.shapeCast_a_a1_apply _ _ p 0).trans ?_
  refine (RowOps.rowMax_apply w _ _ _ _ p).trans ?_
  rw [show (Finset.univ : Finset (Fin 2)) = {0, 1} from rfl, Finset.fold_insert (by decide), Finset.fold_singleton,
    neg_inf_word, max_bot_right]
  rfl

theorem softTail_apply (w : FVec Ideal S1500x2 .f32) (p : Fin 1500) (u : Fin 2) :
    softTail w (ix2 p u) = Cert.Spec.logSoftmax (fun p u => w (ix2 p u)) p u := by
  unfold softTail
  refine (ValueIdx.subf_apply _ _ _).trans ?_
  unfold Cert.Spec.logSoftmax
  refine congrArg₂ (· - ·) (shifted_apply w p u) ?_
  refine (RowOps.broadcastTo_a1_ab_apply _ _ p u).trans ?_
  refine (log_apply _ _).trans ?_
  refine congrArg Ideal.log ?_
  refine (RowOps.shapeCast_a_a1_apply _ _ p 0).trans ?_
  refine (RowOps.rowSum_apply _ _ _ _ _ p).trans ?_
  rw [Fin.sum_univ_two, exp_apply, exp_apply, shifted_apply, shifted_apply]

end Cert.KernelValue

end
-- ==== Proof.KITail.lean ====
/-
  What the last grid point stores, read at node p and class u: the stored term is cut into its stages — the contraction
  of the hidden array, three graph-convolution layers (the first clamped at zero) with their feature products, the last
  affine layer, the log-softmax — each stage a definition over the ones before it, equal to the stored term by
  unfolding alone; each stage is then read at an entry as the specification's term of the curried operands.
-/
import proofs.«149645_g64390149702081_cont_9to1_m_674_16_alg».proof.Proof.Gen.KernelIdeal.Skeleton
import proofs.«149645_g64390149702081_cont_9to1_m_674_16_alg».proof.Proof.Spec
import proofs.«149645_g64390149702081_cont_9to1_m_674_16_alg».proof.Proof.LibPlainDot
import proofs.«149645_g64390149702081_cont_9to1_m_674_16_alg».proof.Proof.LibLeadDot
import proofs.«149645_g64390149702081_cont_9to1_m_674_16_alg».proof.Proof.LibRowVector
import proofs.«149645_g64390149702081_cont_9to1_m_674_16_alg».proof.Proof.LibRowOps
import proofs.«149645_g64390149702081_cont_9to1_m_674_16_alg».proof.Proof.KITailStages
import proofs.«149645_g64390149702081_cont_9to1_m_674_16_alg».proof.Proof.KITailSoft
import Idealize.ShloMosaic.Lib.Pipeline.Value
import Idealize.ShloMosaic.Lib.ValueIdx

noncomputable section

namespace Cert.KernelValue

open Cert.KernelIdeal Cert.KernelIdeal.Gen Idealize.ShloMosaic Idealize.SL.Sem
open Idealize.ShloMosaic.ValueIdx
open scoped BigOperators

section
variable (H : FVec Ideal S10000x1500 .bf16) (x3 : FVec Ideal S10000x128 .bf16) (x4 x5 : FVec Ideal S1500x1500 .bf16)
  (x6 : FVec Ideal S1x128 .f32) (x7 : FVec Ideal S128x30 .f32) (x8 : FVec Ideal S1x30 .f32) (x9 : FVec Ideal S30x30 .f32)
  (x10 : FVec Ideal S1x30 .f32) (x11 : FVec Ideal S30x2 .f32) (x12 : FVec Ideal S1x2 .f32)

/-- The hidden array contracted over its rows against the first graph weight. -/
def st21 : FVec Ideal S1500x128 .f32 :=
  matmul dot_S10000x1500_S10000x128_S1500x128_0_0_1_1_n_n none H (shapeCast S10000x128 x3 shapeCasts_S10000x128_S10000x128)
    (constant S1500x128 .f32 0x00000000#32)

/-- The first graph convolution before the clamp. -/
def st29 : FVec Ideal S1500x128 .f32 :=
  addf (matmul dot_S1500x1500_S1500x128_S1500x128_1_0_0_1_n_n none (shapeCast S1500x1500 x4 shapeCasts_S1500x1500_S1500x1500)
      (truncf .bf16 (st21 H x3) bitsLt_bf16_f32) (constant S1500x128 .f32 0x00000000#32))
    (broadcastTo S1500x128 (shapeCast S1x128 x6 shapeCasts_S1x128_S1x128) broadcasts_S1x128_S1500x128)

/-- The first graph convolution clamped at zero. -/
def st31 : FVec Ideal S1500x128 .f32 :=
  maximumf (st29 H x3 x4 x6) (broadcast S1500x128 (Scalar.ofBits (F := Ideal) .f32 0x00000000#32))

/-- The clamped first layer times the second graph weight. -/
def st35 : FVec Ideal S1500x30 .f32 :=
  matmul dot_S1500x128_S128x30_S1500x30_1_0_0_1_n_n none (truncf .bf16 (st31 H x3 x4 x6) bitsLt_bf16_f32)
    (truncf .bf16 x7 bitsLt_bf16_f32) (constant S1500x30 .f32 0x00000000#32)

/-- The second graph convolution. -/
def st41 : FVec Ideal S1500x30 .f32 :=
  addf (matmul dot_S1500x1500_S1500x30_S1500x30_1_0_0_1_n_n none (shapeCast S1500x1500 x4 shapeCasts_S1500x1500_S1500x1500)
      (truncf .bf16 (st35 H x3 x4 x6 x7) bitsLt_bf16_f32) (constant S1500x30 .f32 0x00000000#32))
    (broadcastTo S1500x30 (shapeCast S1x30 x8 shapeCasts_S1x30_S1x30) broadcasts_S1x30_S1500x30)

/-- The second layer times the third graph weight. -/
def st45 : FVec Ideal S1500x30 .f32 :=
  matmul dot_S1500x30_S30x30_S1500x30_1_0_0_1_n_n none (truncf .bf16 (st41 H x3 x4 x6 x7 x8) bitsLt_bf16_f32)
    (truncf .bf16 x9 bitsLt_bf16_f32) (constant S1500x30 .f32 0x00000000#32)

/-- The third graph convolution, over the second adjacency. -/
def st53 : FVec Ideal S1500x30 .f32 :=
  addf (matmul dot_S1500x1500_S1500x30_S1500x30_1_0_0_1_n_n none (shapeCast S1500x1500 x5 shapeCasts_S1500x1500_S1500x1500)
      (truncf .bf16 (st45 H x3 x4 x6 x7 x8 x9) bitsLt_bf16_f32) (constant S1500x30 .f32 0x00000000#32))
    (broadcastTo S1500x30 (shapeCast S1x30 x10 shapeCasts_S1x30_S1x30) broadcasts_S1x30_S1500x30)

/-- The two logits of every node. -/
def st61 : FVec Ideal S1500x2 .f32 :=
  addf (matmul dot_S1500x30_S30x2_S1500x2_1_0_0_1_n_n none (truncf .bf16 (st53 H x3 x4 x5 x6 x7 x8 x9 x10) bitsLt_bf16_f32)
      (truncf .bf16 x11 bitsLt_bf16_f32) (constant S1500x2 .f32 0x00000000#32))
    (broadcastTo S1500x2 (shapeCast S1x2 x12 shapeCasts_S1x2_S1x2) broadcasts_S1x2_S1500x2)

/-- The kernel's last stored value is the log-softmax tail of its logits. -/
theorem pay_eq :
    k0_pay2 (F := Ideal) (k0_pay3 H x3 x4 x6 x7 x8 x9 x5) (k0_pay4 x10) x11 x12
      = softTail (st61 H x3 x4 x5 x6 x7 x8 x9 x10 x11 x12) := rfl

local notation "Hc" => (fun (r : Fin 10000) (a : Fin 1500) => H (ix2 r a))
local notation "Wg1" => (fun (r : Fin 10000) (j : Fin 128) => x3 (ix2 r j))
local notation "A" => (fun (p a : Fin 1500) => x4 (ix2 p a))
local notation "A2" => (fun (p a : Fin 1500) => x5 (ix2 p a))
local notation "bg1" => (fun (j : Fin 128) => x6 (ix2 0 j))
local notation "Wg2" => (fun (j : Fin 128) (q : Fin 30) => x7 (ix2 j q))
local notation "bg2" => (fun (q : Fin 30) => x8 (ix2 0 q))
local notation "Wg3" => (fun (j q : Fin 30) => x9 (ix2 j q))
local notation "bg3" => (fun (q : Fin 30) => x10 (ix2 0 q))
local notation "Wl4" => (fun (q : Fin 30) (u : Fin 2) => x11 (ix2 q u))
local notation "G1" => (fun (p : Fin 1500) (j : Fin 128) => max (Cert.Spec.conv A (Cert.Spec.agg1 Hc Wg1) bg1 p j) 0)
local notation "G2" => Cert.Spec.conv A (Cert.Spec.proj G1 Wg2) bg2
local notation "G3" => Cert.Spec.conv A2 (Cert.Spec.proj G2 Wg3) bg3

theorem st21_apply (a : Fin 1500) (j : Fin 128) : st21 H x3 (ix2 a j) = Cert.Spec.agg1 Hc Wg1 a j :=
  lead_stage _ rfl H x3 _ a j

theorem st29_apply (p : Fin 1500) (j : Fin 128) :
    st29 H x3 x4 x6 (ix2 p j) = Cert.Spec.conv A (Cert.Spec.agg1 Hc Wg1) bg1 p j := by
  unfold st29
  refine (conv_stage (by decide) _ rfl x4 (st21 H x3) x6 _ _ _ _ p j).trans ?_
  exact congrArg (fun S => Cert.Spec.conv A S bg1 p j) (funext fun a => funext fun j => st21_apply H x3 a j)

theorem st31_apply (p : Fin 1500) (j : Fin 128) : st31 H x3 x4 x6 (ix2 p j) = G1 p j := by
  unfold st31
  refine (ValueIdx.maximumf_apply _ _ _).trans ?_
  refine congrArg₂ max (st29_apply H x3 x4 x6 p j) ?_
  show Ideal.ofBits .f32 0x00000000#32 = 0
  exact Ideal.ofBits_zero_f32

theorem st35_apply (p : Fin 1500) (q : Fin 30) : st35 H x3 x4 x6 x7 (ix2 p q) = Cert.Spec.proj G1 Wg2 p q := by
  unfold st35
  refine (proj_stage _ rfl (st31 H x3 x4 x6) x7 _ p q).trans ?_
  exact congrArg (fun S => Cert.Spec.proj S Wg2 p q) (funext fun a => funext fun j => st31_apply H x3 x4 x6 a j)

theorem st41_apply (p : Fin 1500) (q : Fin 30) : st41 H x3 x4 x6 x7 x8 (ix2 p q) = G2 p q := by
  unfold st41
  refine (conv_stage (by decide) _ rfl x4 (st35 H x3 x4 x6 x7) x8 _ _ _ _ p q).trans ?_
  exact congrArg (fun S => Cert.Spec.conv A S bg2 p q) (funext fun a => funext fun j => st35_apply H x3 x4 x6 x7 a j)

theorem st45_apply (p : Fin 1500) (q : Fin 30) : st45 H x3 x4 x6 x7 x8 x9 (ix2 p q) = Cert.Spec.proj G2 Wg3 p q := by
  unfold st45
  refine (proj_stage _ rfl (st41 H x3 x4 x6 x7 x8) x9 _ p q).trans ?_
  exact congrArg (fun S => Cert.Spec.proj S Wg3 p q) (funext fun a => funext fun j => st41_apply H x3 x4 x6 x7 x8 a j)

theorem st53_apply (p : Fin 1500) (q : Fin 30) : st53 H x3 x4 x5 x6 x7 x8 x9 x10 (ix2 p q) = G3 p q := by
  unfold st53
  refine (conv_stage (by decide) _ rfl x5 (st45 H x3 x4 x6 x7 x8 x9) x10 _ _ _ _ p q).trans ?_
  exact congrArg (fun S => Cert.Spec.conv A2 S bg3 p q) (funext fun a => funext fun j => st45_apply H x3 x4 x6 x7 x8 x9 a j)

theorem st61_apply (p : Fin 1500) (u : Fin 2) :
    st61 H x3 x4 x5 x6 x7 x8 x9 x10 x11 x12 (ix2 p u) = Cert.Spec.proj G3 Wl4 p u + x12 (ix2 0 u) := by
  unfold st61
  refine (ValueIdx.addf_apply _ _ _).trans ?_
  refine congrArg₂ (· + ·) ?_ ?_
  · refine (proj_stage _ rfl (st53 H x3 x4 x5 x6 x7 x8 x9 x10) x11 _ p u).trans ?_
    exact congrArg (fun S => Cert.Spec.proj S Wl4 p u) (funext fun a => funext fun j => st53_apply H x3 x4 x5 x6 x7 x8 x9 x10 a j)
  · refine (Cert.RowVector.broadcastTo_row (by decide) _ _ p u).trans ?_
    exact congrFun (shapeCast_self _ _) _

/-- The kernel's last stored value, read at node p and class u: the log-softmax of the logits computed from the
    hidden array and the weights. -/
theorem tail_apply (p : Fin 1500) (u : Fin 2) :
    k0_pay2 (F := Ideal) (k0_pay3 H x3 x4 x6 x7 x8 x9 x5) (k0_pay4 x10) x11 x12 (ix2 p u)
      = Cert.Spec.logSoftmax (fun p u => Cert.Spec.proj G3 Wl4 p u + x12 (ix2 0 u)) p u := by
  rw [pay_eq]
  refine (softTail_apply _ p u).trans ?_
  exact congrArg (fun w => Cert.Spec.logSoftmax w p u)
    (funext fun p' => funext fun u' => st61_apply H x3 x4 x5 x6 x7 x8 x9 x10 x11 x12 p' u')

end

end Cert.KernelValue

end
-- ==== Proof.KIValue.lean ====
import proofs.«149645_g64390149702081_cont_9to1_m_674_16_alg».proof.Proof.KIFrame
import proofs.«149645_g64390149702081_cont_9to1_m_674_16_alg».proof.Proof.KITailRows
import proofs.«149645_g64390149702081_cont_9to1_m_674_16_alg».proof.Proof.KITail
import proofs.«149645_g64390149702081_cont_9to1_m_674_16_alg».proof.Proof.Spec
import proofs.«149645_g64390149702081_cont_9to1_m_674_16_alg».proof.Proof.LibRowVector
import Idealize.ShloMosaic.Lib.StableHlo.Run
import Idealize.ShloMosaic.Lib.ValueIdx
import Idealize.ShloMosaic.Lib.Pipeline.Value

set_option maxRecDepth 16384

/-!
  What the idealized kernel's result array holds after the run, as extended reals.

  Every window but the first is the whole of its array at every point (its block index is constant zero), the first
  is rows [400·t, 400·t + 400) of the features. The arrays the host prepares before the region are the arguments
  themselves: a change of float format is the identity on extended reals, and a bias vector viewed as a 1×n row
  has the vector's entries. So the carried buffer, once full, is the first affine layer of the specification, the
  last point's output block is the specification's log-softmax of its logits, and that block is the whole
  result array.
-/

noncomputable section

namespace Cert.KernelIdeal.Out

open Cert.KernelIdeal Cert.KernelIdeal.Gen Cert.KernelIdeal.Body
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The printed block-index maps over the 25 points: the features' window moves one block of rows per point, every other
    window stays at block zero. -/
theorem win_idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0 :=
  (by decide +kernel : ∀ t : Fin grid0.N, _)

/-- The features' block at point `t`: rows [400·t, 400·t + 400) of the argument. -/
theorem entry0 (c : Dev nD) (t : Fin cfg0.N) (r : Fin 400) (k : Fin 300) (r' : Fin 10000) (hr : r'.val = 400 * t.val + r.val) :
    iblk m c 0 t (ix2 r k) = m ((c.tc : Thread nD τ).loc main_arg0) (ix2 r' k) := by
  have hb : iblk m c 0 t (ix2 r k) = V m c main_arg0 (ix2 r' k) := by
    show V m c main_arg0 (((cfg0.win 0).blk t).view.emb (ix2 r k)) = V m c main_arg0 (ix2 r' k)
    refine congrArg _ (funext fun d => Fin.ext ?_)
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_0.index t (0 : Fin 2) * 400 + 1 * r.val = r'.val; omega
    | ⟨1, _⟩ => show win0_0.index t (1 : Fin 2) * 300 + 1 * k.val = k.val; omega
  rw [hb, V_main_arg0]

/-- Window 1 holds its whole argument array at every point. -/
theorem entry1 (c : Dev nD) (t : Fin cfg0.N) (a : Fin 300) (b : Fin 1500) :
    iblk m c 1 t (ix2 a b) = m ((c.tc : Thread nD τ).loc main_arg3) (ix2 a b) := by
  have hb : iblk m c 1 t (ix2 a b) = V m c main_arg3 (ix2 a b) := by
    show V m c main_arg3 (((cfg0.win 1).blk t).view.emb (ix2 a b)) = V m c main_arg3 (ix2 a b)
    refine congrArg _ (funext fun d => Fin.ext ?_)
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_1.index t (0 : Fin 2) * 300 + 1 * a.val = a.val; omega
    | ⟨1, _⟩ => show win0_1.index t (1 : Fin 2) * 1500 + 1 * b.val = b.val; omega
  rw [hb]
  rw [V_main_arg3]

/-- Window 2 holds the bias vector viewed as a 1×1500 row. -/
theorem entry2 (c : Dev nD) (t : Fin cfg0.N) (b : Fin 1500) :
    iblk m c 2 t (ix2 (0 : Fin 1) b) = m ((c.tc : Thread nD τ).loc main_arg4) (ix1 b) := by
  have hb : iblk m c 2 t (ix2 (0 : Fin 1) b) = V m c main_v3 (ix2 (0 : Fin 1) b) := by
    show V m c main_v3 (((cfg0.win 2).blk t).view.emb (ix2 (0 : Fin 1) b)) = V m c main_v3 (ix2 (0 : Fin 1) b)
    refine congrArg _ (funext fun d => Fin.ext ?_)
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_2.index t (0 : Fin 2) * 1 + 1 * 0 = 0; omega
    | ⟨1, _⟩ => show win0_2.index t (1 : Fin 2) * 1500 + 1 * b.val = b.val; omega
  rw [hb]
  have e : (V m c main_v3 : S1x1500.Idx → EReal) (ix2 (0 : Fin 1) b) = shapeCast S1x1500 (m ((c : Thread nD τ).loc main_arg4)) shapeCasts_S1500_S1x1500 (ix2 (0 : Fin 1) b) := by
    dsimp only [Gen.V, Gen.hostOps0]; after_results; rfl
  exact e.trans (Cert.RowVector.shapeCast_row _ _ b)

/-- Window 3 holds its whole array, the argument with its format changed before the region (no change of value here). -/
theorem entry3 (c : Dev nD) (t : Fin cfg0.N) (a : Fin 10000) (b : Fin 128) :
    iblk m c 3 t (ix2 a b) = m ((c.tc : Thread nD τ).loc main_arg5) (ix2 a b) := by
  have hb : iblk m c 3 t (ix2 a b) = V m c main_v2 (ix2 a b) := by
    show V m c main_v2 (((cfg0.win 3).blk t).view.emb (ix2 a b)) = V m c main_v2 (ix2 a b)
    refine congrArg _ (funext fun d => Fin.ext ?_)
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_3.index t (0 : Fin 2) * 10000 + 1 * a.val = a.val; omega
    | ⟨1, _⟩ => show win0_3.index t (1 : Fin 2) * 128 + 1 * b.val = b.val; omega
  rw [hb]
  have e : (V m c main_v2 : S10000x128.Idx → EReal) = fun i => m ((c : Thread nD τ).loc main_arg5) i := by
    dsimp only [Gen.V, Gen.hostOps0]; after_results; rfl
  rw [e]

/-- Window 4 holds its whole array, the argument with its format changed before the region (no change of value here). -/
theorem entry4 (c : Dev nD) (t : Fin cfg0.N) (a : Fin 1500) (b : Fin 1500) :
    iblk m c 4 t (ix2 a b) = m ((c.tc : Thread nD τ).loc main_arg1) (ix2 a b) := by
  have hb : iblk m c 4 t (ix2 a b) = V m c main_v0 (ix2 a b) := by
    show V m c main_v0 (((cfg0.win 4).blk t).view.emb (ix2 a b)) = V m c main_v0 (ix2 a b)
    refine congrArg _ (funext fun d => Fin.ext ?_)
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_4.index t (0 : Fin 2) * 1500 + 1 * a.val = a.val; omega
    | ⟨1, _⟩ => show win0_4.index t (1 : Fin 2) * 1500 + 1 * b.val = b.val; omega
  rw [hb]
  have e : (V m c main_v0 : S1500x1500.Idx → EReal) = fun i => m ((c : Thread nD τ).loc main_arg1) i := by
    dsimp only [Gen.V, Gen.hostOps0]; after_results; rfl
  rw [e]

/-- Window 5 holds its whole array, the argument with its format changed before the region (no change of value here). -/
theorem entry5 (c : Dev nD) (t : Fin cfg0.N) (a : Fin 1500) (b : Fin 1500) :
    iblk m c 5 t (ix2 a b) = m ((c.tc : Thread nD τ).loc main_arg2) (ix2 a b) := by
  have hb : iblk m c 5 t (ix2 a b) = V m c main_v1 (ix2 a b) := by
    show V m c main_v1 (((cfg0.win 5).blk t).view.emb (ix2 a b)) = V m c main_v1 (ix2 a b)
    refine congrArg _ (funext fun d => Fin.ext ?_)
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_5.index t (0 : Fin 2) * 1500 + 1 * a.val = a.val; omega
    | ⟨1, _⟩ => show win0_5.index t (1 : Fin 2) * 1500 + 1 * b.val = b.val; omega
  rw [hb]
  have e : (V m c main_v1 : S1500x1500.Idx → EReal) = fun i => m ((c : Thread nD τ).loc main_arg2) i := by
    dsimp only [Gen.V, Gen.hostOps0]; after_results; rfl
  rw [e]

/-- Window 6 holds the bias vector viewed as a 1×128 row. -/
theorem entry6 (c : Dev nD) (t : Fin cfg0.N) (b : Fin 128) :
    iblk m c 6 t (ix2 (0 : Fin 1) b) = m ((c.tc : Thread nD τ).loc main_arg6) (ix1 b) := by
  have hb : iblk m c 6 t (ix2 (0 : Fin 1) b) = V m c main_v4 (ix2 (0 : Fin 1) b) := by
    show V m c main_v4 (((cfg0.win 6).blk t).view.emb (ix2 (0 : Fin 1) b)) = V m c main_v4 (ix2 (0 : Fin 1) b)
    refine congrArg _ (funext fun d => Fin.ext ?_)
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_6.index t (0 : Fin 2) * 1 + 1 * 0 = 0; omega
    | ⟨1, _⟩ => show win0_6.index t (1 : Fin 2) * 128 + 1 * b.val = b.val; omega
  rw [hb]
  have e : (V m c main_v4 : S1x128.Idx → EReal) (ix2 (0 : Fin 1) b) = shapeCast S1x128 (m ((c : Thread nD τ).loc main_arg6)) shapeCasts_S128_S1x128 (ix2 (0 : Fin 1) b) := by
    dsimp only [Gen.V, Gen.hostOps0]; after_results; rfl
  exact e.trans (Cert.RowVector.shapeCast_row _ _ b)

/-- Window 7 holds its whole argument array at every point. -/
theorem entry7 (c : Dev nD) (t : Fin cfg0.N) (a : Fin 128) (b : Fin 30) :
    iblk m c 7 t (ix2 a b) = m ((c.tc : Thread nD τ).loc main_arg7) (ix2 a b) := by
  have hb : iblk m c 7 t (ix2 a b) = V m c main_arg7 (ix2 a b) := by
    show V m c main_arg7 (((cfg0.win 7).blk t).view.emb (ix2 a b)) = V m c main_arg7 (ix2 a b)
    refine congrArg _ (funext fun d => Fin.ext ?_)
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_7.index t (0 : Fin 2) * 128 + 1 * a.val = a.val; omega
    | ⟨1, _⟩ => show win0_7.index t (1 : Fin 2) * 30 + 1 * b.val = b.val; omega
  rw [hb]
  rw [V_main_arg7]

/-- Window 8 holds the bias vector viewed as a 1×30 row. -/
theorem entry8 (c : Dev nD) (t : Fin cfg0.N) (b : Fin 30) :
    iblk m c 8 t (ix2 (0 : Fin 1) b) = m ((c.tc : Thread nD τ).loc main_arg8) (ix1 b) := by
  have hb : iblk m c 8 t (ix2 (0 : Fin 1) b) = V m c main_v5 (ix2 (0 : Fin 1) b) := by
    show V m c main_v5 (((cfg0.win 8).blk t).view.emb (ix2 (0 : Fin 1) b)) = V m c main_v5 (ix2 (0 : Fin 1) b)
    refine congrArg _ (funext fun d => Fin.ext ?_)
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_8.index t (0 : Fin 2) * 1 + 1 * 0 = 0; omega
    | ⟨1, _⟩ => show win0_8.index t (1 : Fin 2) * 30 + 1 * b.val = b.val; omega
  rw [hb]
  have e : (V m c main_v5 : S1x30.Idx → EReal) (ix2 (0 : Fin 1) b) = shapeCast S1x30 (m ((c : Thread nD τ).loc main_arg8)) shapeCasts_S30_S1x30 (ix2 (0 : Fin 1) b) := by
    dsimp only [Gen.V, Gen.hostOps0]; after_results; rfl
  exact e.trans (Cert.RowVector.shapeCast_row _ _ b)

/-- Window 9 holds its whole argument array at every point. -/
theorem entry9 (c : Dev nD) (t : Fin cfg0.N) (a : Fin 30) (b : Fin 30) :
    iblk m c 9 t (ix2 a b) = m ((c.tc : Thread nD τ).loc main_arg9) (ix2 a b) := by
  have hb : iblk m c 9 t (ix2 a b) = V m c main_arg9 (ix2 a b) := by
    show V m c main_arg9 (((cfg0.win 9).blk t).view.emb (ix2 a b)) = V m c main_arg9 (ix2 a b)
    refine congrArg _ (funext fun d => Fin.ext ?_)
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_9.index t (0 : Fin 2) * 30 + 1 * a.val = a.val; omega
    | ⟨1, _⟩ => show win0_9.index t (1 : Fin 2) * 30 + 1 * b.val = b.val; omega
  rw [hb]
  rw [V_main_arg9]

/-- Window 10 holds the bias vector viewed as a 1×30 row. -/
theorem entry10 (c : Dev nD) (t : Fin cfg0.N) (b : Fin 30) :
    iblk m c 10 t (ix2 (0 : Fin 1) b) = m ((c.tc : Thread nD τ).loc main_arg10) (ix1 b) := by
  have hb : iblk m c 10 t (ix2 (0 : Fin 1) b) = V m c main_v6 (ix2 (0 : Fin 1) b) := by
    show V m c main_v6 (((cfg0.win 10).blk t).view.emb (ix2 (0 : Fin 1) b)) = V m c main_v6 (ix2 (0 : Fin 1) b)
    refine congrArg _ (funext fun d => Fin.ext ?_)
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_10.index t (0 : Fin 2) * 1 + 1 * 0 = 0; omega
    | ⟨1, _⟩ => show win0_10.index t (1 : Fin 2) * 30 + 1 * b.val = b.val; omega
  rw [hb]
  have e : (V m c main_v6 : S1x30.Idx → EReal) (ix2 (0 : Fin 1) b) = shapeCast S1x30 (m ((c : Thread nD τ).loc main_arg10)) shapeCasts_S30_S1x30 (ix2 (0 : Fin 1) b) := by
    dsimp only [Gen.V, Gen.hostOps0]; after_results; rfl
  exact e.trans (Cert.RowVector.shapeCast_row _ _ b)

/-- Window 11 holds its whole argument array at every point. -/
theorem entry11 (c : Dev nD) (t : Fin cfg0.N) (a : Fin 30) (b : Fin 2) :
    iblk m c 11 t (ix2 a b) = m ((c.tc : Thread nD τ).loc main_arg11) (ix2 a b) := by
  have hb : iblk m c 11 t (ix2 a b) = V m c main_arg11 (ix2 a b) := by
    show V m c main_arg11 (((cfg0.win 11).blk t).view.emb (ix2 a b)) = V m c main_arg11 (ix2 a b)
    refine congrArg _ (funext fun d => Fin.ext ?_)
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_11.index t (0 : Fin 2) * 30 + 1 * a.val = a.val; omega
    | ⟨1, _⟩ => show win0_11.index t (1 : Fin 2) * 2 + 1 * b.val = b.val; omega
  rw [hb]
  rw [V_main_arg11]

/-- Window 12 holds the bias vector viewed as a 1×2 row. -/
theorem entry12 (c : Dev nD) (t : Fin cfg0.N) (b : Fin 2) :
    iblk m c 12 t (ix2 (0 : Fin 1) b) = m ((c.tc : Thread nD τ).loc main_arg12) (ix1 b) := by
  have hb : iblk m c 12 t (ix2 (0 : Fin 1) b) = V m c main_v7 (ix2 (0 : Fin 1) b) := by
    show V m c main_v7 (((cfg0.win 12).blk t).view.emb (ix2 (0 : Fin 1) b)) = V m c main_v7 (ix2 (0 : Fin 1) b)
    refine congrArg _ (funext fun d => Fin.ext ?_)
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_12.index t (0 : Fin 2) * 1 + 1 * 0 = 0; omega
    | ⟨1, _⟩ => show win0_12.index t (1 : Fin 2) * 2 + 1 * b.val = b.val; omega
  rw [hb]
  have e : (V m c main_v7 : S1x2.Idx → EReal) (ix2 (0 : Fin 1) b) = shapeCast S1x2 (m ((c : Thread nD τ).loc main_arg12)) shapeCasts_S2_S1x2 (ix2 (0 : Fin 1) b) := by
    dsimp only [Gen.V, Gen.hostOps0]; after_results; rfl
  exact e.trans (Cert.RowVector.shapeCast_row _ _ b)

/-- The carried buffer, once full, is the specification's first affine layer of the argument arrays. -/
theorem hidden_apply (c : Dev nD) (r : Fin 10000) (a : Fin 1500) :
    Body.hidden m c (ix2 r a) = Cert.Spec.hid (fun (r : Fin 10000) (k : Fin 300) => (m ((c.tc : Thread nD τ).loc main_arg0)) (ix2 r k))
      (fun (k : Fin 300) (a : Fin 1500) => (m ((c.tc : Thread nD τ).loc main_arg3)) (ix2 k a)) (fun (a : Fin 1500) => (m ((c.tc : Thread nD τ).loc main_arg4)) (ix1 a)) r a := by
  have hrow : inRows (ix2 r a) = ix2 (⟨r.val % 400, Nat.mod_lt _ (by decide)⟩ : Fin 400) a :=
    funext fun d => match d with | ⟨0, _⟩ => rfl | ⟨1, _⟩ => rfl
  unfold Body.hidden Body.rowsOf
  rw [hrow]
  refine (Cert.KernelValue.rows_apply _ _ _ _ a).trans ?_
  unfold Cert.Spec.hid
  rw [entry2 m c (ptOf (ix2 r a)) a]
  refine congrArg (· + _) (Finset.sum_congr rfl fun k _ => ?_)
  rw [entry1 m c (ptOf (ix2 r a)) k a, entry0 m c (ptOf (ix2 r a)) _ k r (by show r.val = 400 * (r.val / 400) + r.val % 400; omega)]

/-- The output block the last point leaves: the specification's log-softmax of its logits. -/
theorem netOut_apply (c : Dev nD) (t : Fin cfg0.N) (p : Fin 1500) (u : Fin 2) :
    netOut m c t (ix2 p u) = Cert.Spec.logSoftmax (Cert.Spec.logits (fun (r : Fin 10000) (k : Fin 300) => (m ((c.tc : Thread nD τ).loc main_arg0)) (ix2 r k)) (fun (p a : Fin 1500) => (m ((c.tc : Thread nD τ).loc main_arg1)) (ix2 p a)) (fun (p a : Fin 1500) => (m ((c.tc : Thread nD τ).loc main_arg2)) (ix2 p a))
        (fun (k : Fin 300) (a : Fin 1500) => (m ((c.tc : Thread nD τ).loc main_arg3)) (ix2 k a)) (fun (a : Fin 1500) => (m ((c.tc : Thread nD τ).loc main_arg4)) (ix1 a)) (fun (r : Fin 10000) (j : Fin 128) => (m ((c.tc : Thread nD τ).loc main_arg5)) (ix2 r j))
        (fun (j : Fin 128) => (m ((c.tc : Thread nD τ).loc main_arg6)) (ix1 j)) (fun (j : Fin 128) (q : Fin 30) => (m ((c.tc : Thread nD τ).loc main_arg7)) (ix2 j q)) (fun (q : Fin 30) => (m ((c.tc : Thread nD τ).loc main_arg8)) (ix1 q))
        (fun (j q : Fin 30) => (m ((c.tc : Thread nD τ).loc main_arg9)) (ix2 j q)) (fun (q : Fin 30) => (m ((c.tc : Thread nD τ).loc main_arg10)) (ix1 q)) (fun (q : Fin 30) (u : Fin 2) => (m ((c.tc : Thread nD τ).loc main_arg11)) (ix2 q u))
        (fun (u : Fin 2) => (m ((c.tc : Thread nD τ).loc main_arg12)) (ix1 u))) p u := by
  unfold netOut tailOut
  refine (Cert.KernelValue.tail_apply _ _ _ _ _ _ _ _ _ _ _ p u).trans ?_
  have h0 : (fun (r : Fin 10000) (a : Fin 1500) => Body.hidden m c (ix2 r a)) = Cert.Spec.hid (fun (r : Fin 10000) (k : Fin 300) => (m ((c.tc : Thread nD τ).loc main_arg0)) (ix2 r k))
      (fun (k : Fin 300) (a : Fin 1500) => (m ((c.tc : Thread nD τ).loc main_arg3)) (ix2 k a)) (fun (a : Fin 1500) => (m ((c.tc : Thread nD τ).loc main_arg4)) (ix1 a)) :=
    funext fun r => funext fun a => hidden_apply m c r a
  have h3 : (fun (r : Fin 10000) (j : Fin 128) => iblk m c 3 t (ix2 r j)) = fun r j => (m ((c.tc : Thread nD τ).loc main_arg5)) (ix2 r j) := funext fun r => funext fun j => entry3 m c t r j
  have h4 : (fun (p a : Fin 1500) => iblk m c 4 t (ix2 p a)) = fun p a => (m ((c.tc : Thread nD τ).loc main_arg1)) (ix2 p a) := funext fun p => funext fun a => entry4 m c t p a
  have h5 : (fun (p a : Fin 1500) => iblk m c 5 t (ix2 p a)) = fun p a => (m ((c.tc : Thread nD τ).loc main_arg2)) (ix2 p a) := funext fun p => funext fun a => entry5 m c t p a
  have h6 : (fun (j : Fin 128) => iblk m c 6 t (ix2 (0 : Fin 1) j)) = fun j => (m ((c.tc : Thread nD τ).loc main_arg6)) (ix1 j) := funext fun j => entry6 m c t j
  have h7 : (fun (j : Fin 128) (q : Fin 30) => iblk m c 7 t (ix2 j q)) = fun j q => (m ((c.tc : Thread nD τ).loc main_arg7)) (ix2 j q) := funext fun j => funext fun q => entry7 m c t j q
  have h8 : (fun (q : Fin 30) => iblk m c 8 t (ix2 (0 : Fin 1) q)) = fun q => (m ((c.tc : Thread nD τ).loc main_arg8)) (ix1 q) := funext fun q => entry8 m c t q
  have h9 : (fun (j q : Fin 30) => iblk m c 9 t (ix2 j q)) = fun j q => (m ((c.tc : Thread nD τ).loc main_arg9)) (ix2 j q) := funext fun j => funext fun q => entry9 m c t j q
  have h10 : (fun (q : Fin 30) => iblk m c 10 t (ix2 (0 : Fin 1) q)) = fun q => (m ((c.tc : Thread nD τ).loc main_arg10)) (ix1 q) := funext fun q => entry10 m c t q
  have h11 : (fun (q : Fin 30) (u : Fin 2) => iblk m c 11 t (ix2 q u)) = fun q u => (m ((c.tc : Thread nD τ).loc main_arg11)) (ix2 q u) := funext fun q => funext fun u => entry11 m c t q u
  have h12 : ∀ u : Fin 2, iblk m c 12 t (ix2 (0 : Fin 1) u) = (m ((c.tc : Thread nD τ).loc main_arg12)) (ix1 u) := fun u => entry12 m c t u
  simp only [h0, h3, h4, h5, h6, h7, h8, h9, h10, h11, h12]
  rfl

/-! ## The result array -/

/-- The result array: node `i 0`, class `i 1`. -/
def result (c : Dev nD) : Buf (Elt Ideal) ((c.tc : Thread nD τ).loc main_v8) := fun i =>
  Cert.Spec.logSoftmax (Cert.Spec.logits (fun (r : Fin 10000) (k : Fin 300) => (m ((c.tc : Thread nD τ).loc main_arg0)) (ix2 r k)) (fun (p a : Fin 1500) => (m ((c.tc : Thread nD τ).loc main_arg1)) (ix2 p a)) (fun (p a : Fin 1500) => (m ((c.tc : Thread nD τ).loc main_arg2)) (ix2 p a))
        (fun (k : Fin 300) (a : Fin 1500) => (m ((c.tc : Thread nD τ).loc main_arg3)) (ix2 k a)) (fun (a : Fin 1500) => (m ((c.tc : Thread nD τ).loc main_arg4)) (ix1 a)) (fun (r : Fin 10000) (j : Fin 128) => (m ((c.tc : Thread nD τ).loc main_arg5)) (ix2 r j))
        (fun (j : Fin 128) => (m ((c.tc : Thread nD τ).loc main_arg6)) (ix1 j)) (fun (j : Fin 128) (q : Fin 30) => (m ((c.tc : Thread nD τ).loc main_arg7)) (ix2 j q)) (fun (q : Fin 30) => (m ((c.tc : Thread nD τ).loc main_arg8)) (ix1 q))
        (fun (j q : Fin 30) => (m ((c.tc : Thread nD τ).loc main_arg9)) (ix2 j q)) (fun (q : Fin 30) => (m ((c.tc : Thread nD τ).loc main_arg10)) (ix1 q)) (fun (q : Fin 30) (u : Fin 2) => (m ((c.tc : Thread nD τ).loc main_arg11)) (ix2 q u))
        (fun (u : Fin 2) => (m ((c.tc : Thread nD τ).loc main_arg12)) (ix1 u))) (i 0) (i 1)

/-- What the last point writes back is the result array read through the output's one block. -/
theorem flushed_eq (c : Dev nD) (t : Fin cfg0.N) :
    (dats m 0 c).flushed 13 t = ((cfg0.win 13).blk t).view.read (Elt Ideal) (result m c) := by
  show (cfg0.win 13).cut (grid0.coords t) ((dats m 0 c).after 13 t) = _
  rw [after13]
  funext j
  obtain ⟨p, u, rfl⟩ : ∃ (p : Fin 1500) (u : Fin 2), j = ix2 p u := ⟨j 0, j 1, eq_ix2 j⟩
  have he : ((cfg0.win 13).blk t).view.emb (ix2 p u) = ix2 p u := by
    funext d; apply Fin.ext
    obtain ⟨e0, e1, e2, e3, e4, e5, e6, e7, e8, e9, e10, e11, e12, e13, e14, e15, e16, e17, e18, e19, e20, e21, e22, e23, e24, e25, e26, e27⟩ := win_idx t
    match d with
    | ⟨0, _⟩ => show win0_13.index t (0 : Fin 2) * 1500 + 1 * p.val = p.val; omega
    | ⟨1, _⟩ => show win0_13.index t (1 : Fin 2) * 2 + 1 * u.val = u.val; omega
  show netOut m c t (ix2 p u) = result m c (((cfg0.win 13).blk t).view.emb (ix2 p u))
  rw [he, netOut_apply]
  rfl

/-- The last grid point. -/
def lastT : Fin cfg0.N := ⟨24, lt_of_lt_of_eq (by decide : (24 : ℕ) < 25) (show cfg0.N = 25 from N_0).symm⟩

/-- An index of the result array lies in a point's output block iff each coordinate lies in the block's range. -/
theorem mem_out (t : Fin cfg0.N) (i : S1500x2.Idx) :
    i ∈ ((cfg0.win 13).blk t).view.set ↔ ∀ a : Fin 2, win0_13.index t a * S1500x2.size a ≤ (i a).val ∧ (i a).val < win0_13.index t a * S1500x2.size a + S1500x2.size a := by
  show i ∈ ((View.whole main_v8).slice (win0_13.rect t)).set ↔ _
  rw [View.set_slice_whole, Rect.mem_set_unit]
  exact Iff.rfl

/-- The output's one block is the whole array, written back at the last point. -/
theorem covered (c : Dev nD) (i : ((cfg0.win 13).arr.view.loc (c.tc : Thread nD τ)).2.ty.Idx) :
    ∃ t : Fin cfg0.N, (cfg0.win 13).flush t = true ∧ i ∈ ((cfg0.win 13).blk t).view.set := by
  refine ⟨lastT, (flush0_13 lastT).mpr rfl, (mem_out lastT i).mpr ?_⟩
  obtain ⟨e0, e1, e2, e3, e4, e5, e6, e7, e8, e9, e10, e11, e12, e13, e14, e15, e16, e17, e18, e19, e20, e21, e22, e23, e24, e25, e26, e27⟩ := win_idx lastT
  intro a
  match a with
  | ⟨0, _⟩ =>
    show win0_13.index lastT (0 : Fin 2) * 1500 ≤ (i 0).val ∧ (i 0).val < win0_13.index lastT (0 : Fin 2) * 1500 + 1500
    have h : (i 0).val < 1500 := (i 0).isLt
    omega
  | ⟨1, _⟩ =>
    show win0_13.index lastT (1 : Fin 2) * 2 ≤ (i 1).val ∧ (i 1).val < win0_13.index lastT (1 : Fin 2) * 2 + 2
    have h : (i 1).val < 2 := (i 1).isLt
    omega

/-- After the run the result array holds the specification's value. -/
theorem final (c : Dev nD) : (dats m 0 c).arrAt 13 cfg0.N = result m c :=
  (dats m 0 c).arrAt_eq_of_cover 13 (result m c) (fun t _ => flushed_eq m c t) (covered c)

/-- The run's post leaves every argument array as launched: a staged one holds its entry contents, the others bypass the region. -/
theorem kept (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 1).trans (((dats m 0 c).arrAt_in 1 rfl _).trans ((A_eq m c 1).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).1 7).trans (((dats m 0 c).arrAt_in 7 rfl _).trans ((A_eq m c 7).trans (V_main_arg7 m c))),
    ((h c).2 main_arg8 (Pipeline.mem_restRefs_of main_arg8 (by decide) (by decide))).trans (V_main_arg8 m c),
    ((h c).1 9).trans (((dats m 0 c).arrAt_in 9 rfl _).trans ((A_eq m c 9).trans (V_main_arg9 m c))),
    ((h c).2 main_arg10 (Pipeline.mem_restRefs_of main_arg10 (by decide) (by decide))).trans (V_main_arg10 m c),
    ((h c).1 11).trans (((dats m 0 c).arrAt_in 11 rfl _).trans ((A_eq m c 11).trans (V_main_arg11 m c))),
    ((h c).2 main_arg12 (Pipeline.mem_restRefs_of main_arg12 (by decide) (by decide))).trans (V_main_arg12 m c)⟩

/-- The run, with the result array named and the arguments unchanged. -/
theorem run : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h c).1 13).trans (final m c), kept m r h c⟩) (run_main (F := Ideal) m ρ)

end Cert.KernelIdeal.Out

end
-- ==== Proof.RefStages.lean ====
/-
  The reference's stages up to the logits, read at an entry over the extended reals and named by the specification:
  the first affine layer, its transpose contracted against the first graph weight (the same sum over the 10000 rows as
  a contraction of the leading axes), three graph-convolution layers with their feature products (the first clamped at
  the zero word, which is the real zero), and the last affine layer. Only renamings of finite sums: no finiteness.
-/
import proofs.«149645_g64390149702081_cont_9to1_m_674_16_alg».proof.Proof.Gen.ReferenceIdeal.Read
import proofs.«149645_g64390149702081_cont_9to1_m_674_16_alg».proof.Proof.Spec

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx
open scoped BigOperators

/-- Two rank-2 indices with the same two coordinates are equal. -/
local macro "ix_rfl2" : tactic => `(tactic| (funext d; match d with | ⟨0, _⟩ => rfl | ⟨1, _⟩ => rfl))
/-- Two rank-1 indices with the same coordinate are equal. -/
local macro "ix_rfl1" : tactic => `(tactic| (funext d; match d with | ⟨0, _⟩ => rfl))

/-- A graph-convolution step written out. -/
private theorem conv_eq {n : ℕ} (Am : Fin 1500 → Fin 1500 → EReal) (S : Fin 1500 → Fin n → EReal) (b : Fin n → EReal)
    (p : Fin 1500) (j : Fin n) : Cert.Spec.conv Am S b p j = (∑ a : Fin 1500, Am p a * S a j) + b j := rfl

/-- Features times a weight written out. -/
private theorem proj_eq {k n : ℕ} (Hf : Fin 1500 → Fin k → EReal) (W : Fin k → Fin n → EReal) (p : Fin 1500) (q : Fin n) :
    Cert.Spec.proj Hf W p q = ∑ j : Fin k, Hf p j * W j q := rfl

section
variable (x0 : (⟨S10000x300, .f32⟩ : BufTy).Contents (Elt Ideal)) (x1 x2 : (⟨S1500x1500, .f32⟩ : BufTy).Contents (Elt Ideal))
  (x3 : (⟨S300x1500, .f32⟩ : BufTy).Contents (Elt Ideal)) (x4 : (⟨S1500, .f32⟩ : BufTy).Contents (Elt Ideal))
  (x5 : (⟨S10000x128, .f32⟩ : BufTy).Contents (Elt Ideal)) (x6 : (⟨S128, .f32⟩ : BufTy).Contents (Elt Ideal))
  (x7 : (⟨S128x30, .f32⟩ : BufTy).Contents (Elt Ideal)) (x8 : (⟨S30, .f32⟩ : BufTy).Contents (Elt Ideal))
  (x9 : (⟨S30x30, .f32⟩ : BufTy).Contents (Elt Ideal)) (x10 : (⟨S30, .f32⟩ : BufTy).Contents (Elt Ideal))
  (x11 : (⟨S30x2, .f32⟩ : BufTy).Contents (Elt Ideal)) (x12 : (⟨S2, .f32⟩ : BufTy).Contents (Elt Ideal))

local notation "X" => (fun (r : Fin 10000) (k : Fin 300) => x0 (ix2 r k))
local notation "A" => (fun (p : Fin 1500) (a : Fin 1500) => x1 (ix2 p a))
local notation "A2" => (fun (p : Fin 1500) (a : Fin 1500) => x2 (ix2 p a))
local notation "W1" => (fun (k : Fin 300) (a : Fin 1500) => x3 (ix2 k a))
local notation "b1" => (fun (a : Fin 1500) => x4 (ix1 a))
local notation "Wg1" => (fun (r : Fin 10000) (j : Fin 128) => x5 (ix2 r j))
local notation "bg1" => (fun (j : Fin 128) => x6 (ix1 j))
local notation "Wg2" => (fun (j : Fin 128) (q : Fin 30) => x7 (ix2 j q))
local notation "bg2" => (fun (q : Fin 30) => x8 (ix1 q))
local notation "Wg3" => (fun (j : Fin 30) (q : Fin 30) => x9 (ix2 j q))
local notation "bg3" => (fun (q : Fin 30) => x10 (ix1 q))
local notation "Wl4" => (fun (q : Fin 30) (u : Fin 2) => x11 (ix2 q u))
local notation "bl4" => (fun (u : Fin 2) => x12 (ix1 u))

/-- The first affine layer read at row r, column a. -/
theorem ref_v3 (r : Fin 10000) (a : Fin 1500) :
    val_main_v3 (F := Ideal) x0 x3 x4 (ix2 r a) = Cert.Spec.hid X W1 b1 r a := by
  rw [val_main_v3_apply, val_main_v0_apply, val_main_v2_apply, val_main_v1_apply]
  unfold Cert.Spec.hid
  rw [show idx_main_v1 (idx_main_v2 (ix2 r a)) = ix1 a by ix_rfl1]
  refine congrArg (· + x4 (ix1 a)) (Finset.sum_congr rfl fun k _ => ?_)
  rw [show lidx_main_v0 (ix2 r a) k = ix2 r k by ix_rfl2, show ridx_main_v0 (ix2 r a) k = ix2 k a by ix_rfl2]

/-- The hidden array contracted over its rows against the first graph weight, read at node a, feature j. -/
theorem ref_v5 (a : Fin 1500) (j : Fin 128) :
    val_main_v5 (F := Ideal) x0 x3 x4 x5 (ix2 a j) = Cert.Spec.agg1 (Cert.Spec.hid X W1 b1) Wg1 a j := by
  rw [val_main_v5_apply]
  unfold Cert.Spec.agg1
  refine Finset.sum_congr rfl fun k _ => ?_
  rw [show lidx_main_v5 (ix2 a j) k = ix2 a k by ix_rfl2, show ridx_main_v5 (ix2 a j) k = ix2 k j by ix_rfl2,
    val_main_v4_apply, show idx_main_v4 (ix2 a k) = ix2 k a by ix_rfl2, ref_v3]

/-- The first graph convolution before the clamp, read at node p, feature j. -/
theorem ref_v9 (p : Fin 1500) (j : Fin 128) :
    val_main_v9 (F := Ideal) x0 x1 x3 x4 x5 x6 (ix2 p j)
      = Cert.Spec.conv A (Cert.Spec.agg1 (Cert.Spec.hid X W1 b1) Wg1) bg1 p j := by
  rw [val_main_v9_apply, val_main_v6_apply, val_main_v8_apply, val_main_v7_apply]
  unfold Cert.Spec.conv
  rw [show idx_main_v7 (idx_main_v8 (ix2 p j)) = ix1 j by ix_rfl1]
  refine congrArg (· + x6 (ix1 j)) (Finset.sum_congr rfl fun k _ => ?_)
  rw [show lidx_main_v6 (ix2 p j) k = ix2 p k by ix_rfl2, show ridx_main_v6 (ix2 p j) k = ix2 k j by ix_rfl2, ref_v5]

/-- The clamped first layer. -/
theorem ref_v10 (p : Fin 1500) (j : Fin 128) :
    val_main_v10 (F := Ideal) x0 x1 x3 x4 x5 x6 (ix2 p j)
      = max (Cert.Spec.conv A (Cert.Spec.agg1 (Cert.Spec.hid X W1 b1) Wg1) bg1 p j) 0 := by
  rw [val_main_v10_apply, val_main_call0_v0_apply, val_main_call0_cst_apply, ref_v9]
  show max _ (Ideal.ofBits .f32 0x00000000#32) = _
  rw [Ideal.ofBits_zero_f32]

local notation "H1" => (fun (p : Fin 1500) (j : Fin 128) => max (Cert.Spec.conv A (Cert.Spec.agg1 (Cert.Spec.hid X W1 b1) Wg1) bg1 p j) 0)
local notation "H2" => Cert.Spec.conv A (Cert.Spec.proj H1 Wg2) bg2
local notation "H3" => Cert.Spec.conv A2 (Cert.Spec.proj H2 Wg3) bg3

/-- The clamped first layer times the second graph weight. -/
theorem ref_v11 (p : Fin 1500) (q : Fin 30) :
    val_main_v11 (F := Ideal) x0 x1 x3 x4 x5 x6 x7 (ix2 p q) = Cert.Spec.proj H1 Wg2 p q := by
  rw [val_main_v11_apply]
  unfold Cert.Spec.proj
  refine Finset.sum_congr rfl fun k _ => ?_
  rw [show lidx_main_v11 (ix2 p q) k = ix2 p k by ix_rfl2, show ridx_main_v11 (ix2 p q) k = ix2 k q by ix_rfl2, ref_v10]

/-- The second graph convolution. -/
theorem ref_v15 (p : Fin 1500) (q : Fin 30) :
    val_main_v15 (F := Ideal) x0 x1 x3 x4 x5 x6 x7 x8 (ix2 p q) = H2 p q := by
  rw [val_main_v15_apply, val_main_v12_apply, val_main_v14_apply, val_main_v13_apply, conv_eq]
  rw [show idx_main_v13 (idx_main_v14 (ix2 p q)) = ix1 q by ix_rfl1]
  refine congrArg (· + x8 (ix1 q)) (Finset.sum_congr rfl fun k _ => ?_)
  rw [show lidx_main_v12 (ix2 p q) k = ix2 p k by ix_rfl2, show ridx_main_v12 (ix2 p q) k = ix2 k q by ix_rfl2, ref_v11]

/-- The second layer times the third graph weight. -/
theorem ref_v16 (p : Fin 1500) (q : Fin 30) :
    val_main_v16 (F := Ideal) x0 x1 x3 x4 x5 x6 x7 x8 x9 (ix2 p q) = Cert.Spec.proj H2 Wg3 p q := by
  rw [val_main_v16_apply, proj_eq]
  refine Finset.sum_congr rfl fun k _ => ?_
  rw [show lidx_main_v16 (ix2 p q) k = ix2 p k by ix_rfl2, show ridx_main_v16 (ix2 p q) k = ix2 k q by ix_rfl2, ref_v15]

/-- The third graph convolution, over the second adjacency. -/
theorem ref_v20 (p : Fin 1500) (q : Fin 30) :
    val_main_v20 (F := Ideal) x0 x1 x2 x3 x4 x5 x6 x7 x8 x9 x10 (ix2 p q) = H3 p q := by
  rw [val_main_v20_apply, val_main_v17_apply, val_main_v19_apply, val_main_v18_apply, conv_eq]
  rw [show idx_main_v18 (idx_main_v19 (ix2 p q)) = ix1 q by ix_rfl1]
  refine congrArg (· + x10 (ix1 q)) (Finset.sum_congr rfl fun k _ => ?_)
  rw [show lidx_main_v17 (ix2 p q) k = ix2 p k by ix_rfl2, show ridx_main_v17 (ix2 p q) k = ix2 k q by ix_rfl2, ref_v16]

/-- The reference's logits are the specification's, at every node p and class u. -/
theorem ref_logits (p : Fin 1500) (u : Fin 2) :
    val_main_v24 (F := Ideal) x0 x1 x2 x3 x4 x5 x6 x7 x8 x9 x10 x11 x12 (ix2 p u)
      = Cert.Spec.logits X A A2 W1 b1 Wg1 bg1 Wg2 bg2 Wg3 bg3 Wl4 bl4 p u := by
  rw [val_main_v24_apply, val_main_v21_apply, val_main_v23_apply, val_main_v22_apply]
  show _ = Cert.Spec.proj H3 Wl4 p u + x12 (ix1 u)
  rw [proj_eq]
  rw [show idx_main_v22 (idx_main_v23 (ix2 p u)) = ix1 u by ix_rfl1]
  refine congrArg (· + x12 (ix1 u)) (Finset.sum_congr rfl fun k _ => ?_)
  rw [show lidx_main_v21 (ix2 p u) k = ix2 p k by ix_rfl2, show ridx_main_v21 (ix2 p u) k = ix2 k u by ix_rfl2, ref_v20]

end

end Cert.RefValue

end
-- ==== Proof.RefSoftmax.lean ====
/-
  The reference's log-softmax over two lanes, read at an entry: the row maximum is the maximum-reduce from −∞ taken once
  more against −∞ (no change), the logits are shifted by it, exponentiated, summed from zero, and the logarithm of the
  sum is subtracted. It is the specification's log-softmax of the logits, and the run's result term is this last stage.
-/
import proofs.«149645_g64390149702081_cont_9to1_m_674_16_alg».proof.Proof.Gen.ReferenceIdeal.Read
import proofs.«149645_g64390149702081_cont_9to1_m_674_16_alg».proof.Proof.Spec
import Idealize.ShloMosaic.PureOps.Reduce

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx
open scoped BigOperators

/-- Two rank-2 indices with the same two coordinates are equal. -/
local macro "ix_rfl2" : tactic => `(tactic| (funext d; match d with | ⟨0, _⟩ => rfl | ⟨1, _⟩ => rfl))
/-- Two rank-1 indices with the same coordinate are equal. -/
local macro "ix_rfl1" : tactic => `(tactic| (funext d; match d with | ⟨0, _⟩ => rfl))

/-- The reduced index p with lane k put back is (p, k). -/
private theorem lift_ix2 (h : S1500x2.Reduces [1] S1500) (p : Fin 1500) (k : Fin (S1500x2.size 1)) :
    h.lift (ix1 p) k = ix2 p (⟨k.val, k.isLt⟩ : Fin 2) := by
  funext c; apply Fin.ext
  fin_cases c <;> rfl

/-- The word 0xFF800000 is −∞, the least extended real. -/
private theorem neg_inf_word : Ideal.ofBits .f32 0xFF800000#32 = (⊥ : EReal) := by simp [Ideal.ofBits, Ideal.ieee]

/-- From −∞ the reduce with a maximum body over the two lanes of a row is the larger of the two. -/
theorem reduce_max_row (w : FVec Ideal S1500x2 .f32) (p : Fin 1500) :
    Host.reduce FloatOps.maximumf w (constant (F := Ideal) S_ .f32 0xFF800000#32) reducesTo_S1500x2_S1500_d1 h_S_ (ix1 p)
      = max (w (ix2 p 0)) (w (ix2 p 1)) := by
  have h : S1500x2.Reduces [1] S1500 := by decide
  rw [Host.reduce_eq_fold_single FloatOps.maximumf w _ reducesTo_S1500x2_S1500_d1 h h_S_]
  have hf : (w ∘ h.lift (ix1 p)) = fun k : Fin 2 => w (ix2 p k) := funext fun k => congrArg w (lift_ix2 h p k)
  rw [hf]
  change Finset.fold max (Ideal.ofBits .f32 0xFF800000#32) (fun k : Fin 2 => w (ix2 p k)) (Finset.univ : Finset (Fin 2)) = _
  rw [show (Finset.univ : Finset (Fin 2)) = {0, 1} from rfl, Finset.fold_insert (by decide), Finset.fold_singleton,
    neg_inf_word, max_bot_right]

section
variable (x0 : (⟨S10000x300, .f32⟩ : BufTy).Contents (Elt Ideal)) (x1 x2 : (⟨S1500x1500, .f32⟩ : BufTy).Contents (Elt Ideal))
  (x3 : (⟨S300x1500, .f32⟩ : BufTy).Contents (Elt Ideal)) (x4 : (⟨S1500, .f32⟩ : BufTy).Contents (Elt Ideal))
  (x5 : (⟨S10000x128, .f32⟩ : BufTy).Contents (Elt Ideal)) (x6 : (⟨S128, .f32⟩ : BufTy).Contents (Elt Ideal))
  (x7 : (⟨S128x30, .f32⟩ : BufTy).Contents (Elt Ideal)) (x8 : (⟨S30, .f32⟩ : BufTy).Contents (Elt Ideal))
  (x9 : (⟨S30x30, .f32⟩ : BufTy).Contents (Elt Ideal)) (x10 : (⟨S30, .f32⟩ : BufTy).Contents (Elt Ideal))
  (x11 : (⟨S30x2, .f32⟩ : BufTy).Contents (Elt Ideal)) (x12 : (⟨S2, .f32⟩ : BufTy).Contents (Elt Ideal))

local notation "Wv" => val_main_v24 (F := Ideal) x0 x1 x2 x3 x4 x5 x6 x7 x8 x9 x10 x11 x12
local notation "Wf" => (fun (p : Fin 1500) (u : Fin 2) => val_main_v24 (F := Ideal) x0 x1 x2 x3 x4 x5 x6 x7 x8 x9 x10 x11 x12 (ix2 p u))

/-- The maximum the logits of row p are shifted by. -/
theorem ref_call1_v2 (p : Fin 1500) :
    val_main_call1_v2 (F := Ideal) x0 x1 x2 x3 x4 x5 x6 x7 x8 x9 x10 x11 x12 (ix1 p) = Cert.Spec.rowMax Wf p := by
  rw [val_main_call1_v2_apply, val_main_call1_v1_apply, val_main_call1_cst_0_apply]
  unfold val_main_call1_v0 val_main_call1_cst
  rw [reduce_max_row]
  show max (Ideal.ofBits .f32 0xFF800000#32) _ = _
  rw [neg_inf_word, max_bot_left]
  rfl

/-- The shifted logit. -/
theorem ref_call1_v5 (p : Fin 1500) (u : Fin 2) :
    val_main_call1_v5 (F := Ideal) x0 x1 x2 x3 x4 x5 x6 x7 x8 x9 x10 x11 x12 (ix2 p u) = Wv (ix2 p u) - Cert.Spec.rowMax Wf p := by
  rw [val_main_call1_v5_apply, val_main_call1_v4_apply, val_main_call1_v3_apply,
    show idx_main_call1_v3 (idx_main_call1_v4 (ix2 p u)) = ix1 p by ix_rfl1, ref_call1_v2]
  rfl

/-- The sum of the two exponentials of a row. -/
theorem ref_call1_v7 (p : Fin 1500) :
    val_main_call1_v7 (F := Ideal) x0 x1 x2 x3 x4 x5 x6 x7 x8 x9 x10 x11 x12 (ix1 p)
      = Ideal.exp (Wv (ix2 p 0) - Cert.Spec.rowMax Wf p) + Ideal.exp (Wv (ix2 p 1) - Cert.Spec.rowMax Wf p) := by
  rw [val_main_call1_v7_apply, val_main_call1_cst_1_apply, Fin.sum_univ_two,
    show idx_main_call1_v7 (ix1 p) 0 = ix2 p 0 by ix_rfl2, show idx_main_call1_v7 (ix1 p) 1 = ix2 p 1 by ix_rfl2,
    val_main_call1_v6_apply, val_main_call1_v6_apply, ref_call1_v5, ref_call1_v5]
  show Ideal.ofBits .f32 0x00000000#32 + _ = _
  rw [Ideal.ofBits_zero_f32, zero_add]
  rfl

/-- The reference's last stage is the log-softmax of its logits, row by row. -/
theorem ref_v25 (p : Fin 1500) (u : Fin 2) :
    val_main_v25 (F := Ideal) x0 x1 x2 x3 x4 x5 x6 x7 x8 x9 x10 x11 x12 (ix2 p u) = Cert.Spec.logSoftmax Wf p u := by
  rw [val_main_v25_apply, val_main_call1_v10_apply, val_main_call1_v9_apply, val_main_call1_v8_apply,
    show idx_main_call1_v8 (idx_main_call1_v10 (ix2 p u)) = ix1 p by ix_rfl1, ref_call1_v7, ref_call1_v5]
  rfl

end

/-- The reference run's result, read at node p and class u, is the log-softmax of the reference's logits. -/
theorem ref_result (m : (ℓ : Loc nD τ sig) → Buf (Elt Ideal) ℓ) (c : Dev nD) (p : Fin 1500) (u : Fin 2) :
    Cert.ReferenceIdeal.Value.res_main_v25 (F := Ideal) m c (ix2 p u)
      = Cert.Spec.logSoftmax (fun (p : Fin 1500) (u : Fin 2) => val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix2 p u)) p u := by
  rw [val_main_v25_eq]
  exact ref_v25 _ _ _ _ _ _ _ _ _ _ _ _ _ p u

end Cert.RefValue

end
-- ==== Proof.RefFinal.lean ====
/-
  The reference's result array, read at node p and class u, is the specification's log-softmax of the specification's
  logits of the thirteen argument arrays: the log-softmax stage applied to the logits stage.
-/
import proofs.«149645_g64390149702081_cont_9to1_m_674_16_alg».proof.Proof.RefStages
import proofs.«149645_g64390149702081_cont_9to1_m_674_16_alg».proof.Proof.RefSoftmax

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

section
variable (x0 : (⟨S10000x300, .f32⟩ : BufTy).Contents (Elt Ideal)) (x1 x2 : (⟨S1500x1500, .f32⟩ : BufTy).Contents (Elt Ideal))
  (x3 : (⟨S300x1500, .f32⟩ : BufTy).Contents (Elt Ideal)) (x4 : (⟨S1500, .f32⟩ : BufTy).Contents (Elt Ideal))
  (x5 : (⟨S10000x128, .f32⟩ : BufTy).Contents (Elt Ideal)) (x6 : (⟨S128, .f32⟩ : BufTy).Contents (Elt Ideal))
  (x7 : (⟨S128x30, .f32⟩ : BufTy).Contents (Elt Ideal)) (x8 : (⟨S30, .f32⟩ : BufTy).Contents (Elt Ideal))
  (x9 : (⟨S30x30, .f32⟩ : BufTy).Contents (Elt Ideal)) (x10 : (⟨S30, .f32⟩ : BufTy).Contents (Elt Ideal))
  (x11 : (⟨S30x2, .f32⟩ : BufTy).Contents (Elt Ideal)) (x12 : (⟨S2, .f32⟩ : BufTy).Contents (Elt Ideal))

/-- The reference's last stage is the specification's log-softmax of the specification's logits. -/
theorem ref_v25_spec (p : Fin 1500) (u : Fin 2) :
    val_main_v25 (F := Ideal) x0 x1 x2 x3 x4 x5 x6 x7 x8 x9 x10 x11 x12 (ix2 p u)
      = Cert.Spec.logSoftmax (Cert.Spec.logits (fun (r : Fin 10000) (k : Fin 300) => x0 (ix2 r k)) (fun (p a : Fin 1500) => x1 (ix2 p a)) (fun (p a : Fin 1500) => x2 (ix2 p a))
        (fun (k : Fin 300) (a : Fin 1500) => x3 (ix2 k a)) (fun (a : Fin 1500) => x4 (ix1 a)) (fun (r : Fin 10000) (j : Fin 128) => x5 (ix2 r j))
        (fun (j : Fin 128) => x6 (ix1 j)) (fun (j : Fin 128) (q : Fin 30) => x7 (ix2 j q)) (fun (q : Fin 30) => x8 (ix1 q))
        (fun (j q : Fin 30) => x9 (ix2 j q)) (fun (q : Fin 30) => x10 (ix1 q)) (fun (q : Fin 30) (u : Fin 2) => x11 (ix2 q u))
        (fun (u : Fin 2) => x12 (ix1 u))) p u := by
  rw [ref_v25]
  exact congrArg (fun w => Cert.Spec.logSoftmax w p u)
    (funext fun p' => funext fun u' => ref_logits x0 x1 x2 x3 x4 x5 x6 x7 x8 x9 x10 x11 x12 p' u')

end

/-- The reference run's result, read at node p and class u, is the specification's log-softmax of the
    specification's logits of the thirteen argument arrays. -/
theorem ref_final (m : (ℓ : Loc nD τ sig) → Buf (Elt Ideal) ℓ) (c : Dev nD) (p : Fin 1500) (u : Fin 2) :
    Cert.ReferenceIdeal.Value.res_main_v25 (F := Ideal) m c (ix2 p u)
      = Cert.Spec.logSoftmax (Cert.Spec.logits (fun (r : Fin 10000) (k : Fin 300) => (m ((c.tc : Thread nD τ).loc main_arg0)) (ix2 r k)) (fun (p a : Fin 1500) => (m ((c.tc : Thread nD τ).loc main_arg1)) (ix2 p a)) (fun (p a : Fin 1500) => (m ((c.tc : Thread nD τ).loc main_arg2)) (ix2 p a))
        (fun (k : Fin 300) (a : Fin 1500) => (m ((c.tc : Thread nD τ).loc main_arg3)) (ix2 k a)) (fun (a : Fin 1500) => (m ((c.tc : Thread nD τ).loc main_arg4)) (ix1 a)) (fun (r : Fin 10000) (j : Fin 128) => (m ((c.tc : Thread nD τ).loc main_arg5)) (ix2 r j))
        (fun (j : Fin 128) => (m ((c.tc : Thread nD τ).loc main_arg6)) (ix1 j)) (fun (j : Fin 128) (q : Fin 30) => (m ((c.tc : Thread nD τ).loc main_arg7)) (ix2 j q)) (fun (q : Fin 30) => (m ((c.tc : Thread nD τ).loc main_arg8)) (ix1 q))
        (fun (j q : Fin 30) => (m ((c.tc : Thread nD τ).loc main_arg9)) (ix2 j q)) (fun (q : Fin 30) => (m ((c.tc : Thread nD τ).loc main_arg10)) (ix1 q)) (fun (q : Fin 30) (u : Fin 2) => (m ((c.tc : Thread nD τ).loc main_arg11)) (ix2 q u))
        (fun (u : Fin 2) => (m ((c.tc : Thread nD τ).loc main_arg12)) (ix1 u))) p u := by
  rw [val_main_v25_eq]
  exact ref_v25_spec _ _ _ _ _ _ _ _ _ _ _ _ _ p u

end Cert.RefValue

end
-- ==== Proof.lean ====
/-
  The certificate's five claims.

  The kernel keeps the first layer's 10000×1500 result in a buffer it fills 400 rows per grid point, and at the last
  point runs the rest of the network on the full buffer; the reference computes the same network with one product per
  layer. Read as extended reals the two are the same sums (a change of float format is the identity, a sum may be
  taken in any order), so both result arrays are the specification's log-softmax of its logits. The three frames
  are the runs themselves with the result dropped; the idealization rewrote nothing, so there is nothing to preserve.
-/
import proofs.«149645_g64390149702081_cont_9to1_m_674_16_alg».proof.Defs
import proofs.«149645_g64390149702081_cont_9to1_m_674_16_alg».proof.Proof.KFrame
import proofs.«149645_g64390149702081_cont_9to1_m_674_16_alg».proof.Proof.KIValue
import proofs.«149645_g64390149702081_cont_9to1_m_674_16_alg».proof.Proof.RefFinal
import proofs.«149645_g64390149702081_cont_9to1_m_674_16_alg».proof.Proof.Gen.Kernel
import proofs.«149645_g64390149702081_cont_9to1_m_674_16_alg».proof.Proof.Gen.KernelIdeal
import proofs.«149645_g64390149702081_cont_9to1_m_674_16_alg».proof.Proof.Gen.ReferenceIdeal
import proofs.«149645_g64390149702081_cont_9to1_m_674_16_alg».proof.Proof.Gen.ReferenceIdeal.Run
import proofs.«149645_g64390149702081_cont_9to1_m_674_16_alg».proof.Proof.Gen.Pre_finite_inputs
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Body.frame m ρ

/-- So does its reading over the extended reals. -/
theorem frame_kernelIdeal : Cert.frame_KernelIdeal := fun m ρ _ => Cert.KernelIdeal.Body.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's value of the (agreeing) argument arrays in their result arrays. -/
theorem algebraic : Cert.algebraic_KernelIdeal_ReferenceIdeal := by
  intro m ρ m' ρ' _ hagree
  refine ⟨fun c => Cert.KernelIdeal.Out.result m c, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  funext i
  obtain ⟨p, u, rfl⟩ : ∃ (p : Fin 1500) (u : Fin 2), i = ValueIdx.ix2 p u := ⟨i 0, i 1, ValueIdx.eq_ix2 i⟩
  rw [Cert.RefValue.ref_final m' c p u]
  obtain ⟨a0, a1, a2, a3, a4, a5, a6, a7, a8, a9, a10, a11, a12⟩ := hagree c
  rw [a0, a1, a2, a3, a4, a5, a6, a7, a8, a9, a10, a11, a12]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
